-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S100000x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 99999#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S100000x128 : Shape := ⟨2, ![100000, 128]⟩
abbrev S16384x128 : Shape := ⟨2, ![16384, 128]⟩
abbrev S512 : Shape := ⟨1, ![512]⟩
abbrev S512x128 : Shape := ⟨2, ![512, 128]⟩
abbrev S_ : Shape := ⟨0, ![]⟩

abbrev nBuf : Table → Nat
  | .hbm => 3
  | .local .scVector .vmem => 2
  | _ => 0

abbrev bufTy : (tb : Table) → Fin (nBuf tb) → BufTy
  | .hbm, ⟨0, _⟩ => ⟨S16384, .i32⟩
  | .hbm, ⟨1, _⟩ => ⟨S100000x128, .f32⟩
  | .hbm, ⟨2, _⟩ => ⟨S16384x128, .f32⟩
  | .local .scVector .vmem, ⟨0, _⟩ => ⟨S512, .i32⟩
  | .local .scVector .vmem, ⟨1, _⟩ => ⟨S512x128, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  ![v2.toNat]
def k0_off2 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_3 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S100000x128_S100000x128_0_0 : ∀ a, (![0, 0] : Fin 2 → Nat) a + S100000x128.size a ≤ S100000x128.size a
  gathers_S100000x128_S512x128 : S100000x128.Gathers 0 S512x128
  hcc0_scratch2 : 0 + S_.numel ≤ 3
  hcc0_scratch3 : 1 + S_.numel ≤ 3
  hcc0_scoped0 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ a, (k0_off2 i) a + S512x128.size a ≤ S16384x128.size a

variable [Facts₀]

abbrev cc0_scratch2 : DmaSems sig S_ := SemArray.consecutive 0 S_ hcc0_scratch2
abbrev cc0_scratch3 : DmaSems sig S_ := SemArray.consecutive 1 S_ hcc0_scratch3
abbrev cc0_scoped0 : DmaSems sig S_ := SemArray.consecutive 2 S_ hcc0_scoped0

class Facts : Prop extends Facts₀ where

variable [Facts]
-- ==== ReferenceIdeal.lean ====
abbrev S16384 : Shape := ⟨1, ![16384]⟩
abbrev S100000x128 : Shape := ⟨2, ![100000, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S100000x128, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x128, .f32⟩
  | .hbm, ⟨21, _⟩ => ⟨S16384x128, .i1⟩
  | .hbm, ⟨22, _⟩ => ⟨S_, .f32⟩
  | .hbm, ⟨23, _⟩ => ⟨S16384x128, .f32⟩
  | .hbm, ⟨24, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  gather_S100000x128_S16384x1_S16384x128_1_0_n_n_0_1_1128_wf : GatherDims.WF S100000x128 S16384x1 S16384x128 [1] [0] [] [0] [] 1 ![1, 128]

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf

class Facts : Prop extends Facts₀ where

variable [Facts]
-- ==== Proof.Spec.lean ====
/-
  The function both programs compute: row `e` of the result is the row of the table that index word `e` names.

  An index word is read unsigned and capped at the last row, so that the function is total; on the inputs the
  certificate speaks of every word names a row (`InRange`) and the cap is never met.
-/
import Idealize.ShloMosaic.PureOps
import Idealize.ShloMosaic.Lib.ValueIdx

noncomputable section

namespace Cert.Spec

open Idealize.ShloMosaic Idealize.ShloMosaic.ValueIdx

/-- The index vector, the table and the result, as shapes. -/
abbrev SIdx : Shape := ⟨1, ![16384]⟩
abbrev STab : Shape := ⟨2, ![100000, 128]⟩
abbrev SOut : Shape := ⟨2, ![16384, 128]⟩

/-- The row an index word names: the word read unsigned, capped at the table's last row. -/
def rowOfWord (b : BitVec 32) : Fin 100000 := ⟨min b.toNat 99999, by omega⟩

/-- A word below the number of rows names the row of its own value. -/
theorem rowOfWord_val_of_lt (b : BitVec 32) (h : b.toNat < 100000) : (rowOfWord b).val = b.toNat := by
  unfold rowOfWord; simp only; omega

/-- The rows looked up: entry `(e, q)` is the table at the row word `e` names, column `q`. -/
def lookup {α : Type} (idx : SIdx.Idx → BitVec 32) (tab : STab.Idx → α) : SOut.Idx → α :=
  fun j => tab (ix2 (rowOfWord (idx (ix1 (j 0)))) (j 1))

theorem lookup_apply {α : Type} (idx : SIdx.Idx → BitVec 32) (tab : STab.Idx → α) (e : Fin 16384) (q : Fin 128) :
    lookup idx tab (ix2 e q) = tab (ix2 (rowOfWord (idx (ix1 e))) q) := rfl

/-- Every index word names a row of the table. -/
def InRange (idx : SIdx.Idx → BitVec 32) : Prop := ∀ e : Fin 16384, (idx (ix1 e)).toNat < 100000

end Cert.Spec

end
-- ==== Proof.KISetup.lean ====
/-
  The lookup kernel on the SparseCores: thirty-two tasks (two SparseCores of sixteen vector subcores) each own 512
  consecutive entries of the index vector and the 512 rows of the result with the same numbers. Here: the bands and the
  shares the arrays are cut into, what each task is handed and hands back, the task's slices as it addresses them, and
  that the index words a task fetches name rows of the table.
-/
import proofs.«206635_g86930138071314_cont_sun_m_813_11_alg».proof.Defs
import proofs.«206635_g86930138071314_cont_sun_m_813_11_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206635_g86930138071314_cont_sun_m_813_11_alg».proof.Proof.Gen.KernelIdeal
import proofs.«206635_g86930138071314_cont_sun_m_813_11_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

local notation "iV" => (Memref.whole Cert.KernelIdeal.main_arg0_scv : Memref Cert.KernelIdeal.sig Kind.scVector Space.hbm Cert.KernelIdeal.S16384 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S16384x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

/-- The index vector and the result cut into thirty-two bands of 512 along their first axis: band `w` is task `w`'s. -/
theorem idiv : 32 ∣ S16384.size 0 := ⟨512, rfl⟩
theorem odiv : 32 ∣ S16384x128.size 0 := ⟨512, rfl⟩
abbrev irow (w : Fin 32) : Rect S16384 := Rect.part (s := S16384) (a₀ := 0) idiv w
abbrev orow (w : Fin 32) : Rect S16384x128 := Rect.part (s := S16384x128) (a₀ := 0) odiv w
abbrev iRowSet (w : Fin 32) : Finset S16384.Idx := ((iV).view.slice (irow w)).set
abbrev oRowSet (w : Fin 32) : Finset S16384x128.Idx := ((oV).view.slice (orow w)).set

/-- Task `w`'s share of the table: the full share cut into thirty-two pieces. -/
abbrev xq (w : Fin 32) : PosShare TreeShare := pieceOf fullShare 32 (by norm_num) w

variable [FloatOps F]

/-! ## The result, and what the handshakes carry -/

/-- The result array: the rows looked up, as a function of the launch contents of the index vector and the table. -/
def Gout (d : Dev nD) : Buf (Elt F) (oLoc d) := Cert.Spec.lookup (α := Elt F .f32) (m (iLoc d)) (m (xLoc d))

abbrev iPts (d : Dev nD) : sProp 𝕄 := iLoc d ↦{fullShare} m (iLoc d)
abbrev xPts (d : Dev nD) : sProp 𝕄 := xLoc d ↦{fullShare} m (xLoc d)
abbrev oPts (d : Dev nD) (f : Buf (Elt F) (oLoc d)) : sProp 𝕄 := oLoc d ↦{fullShare} f
abbrev iRowPts (d : Dev nD) (w : Fin 32) : sProp 𝕄 := iLoc d ↦[iRowSet w]{fullShare} m (iLoc d)
abbrev xShPts (d : Dev nD) (w : Fin 32) : sProp 𝕄 := xLoc d ↦{xq w} m (xLoc d)
abbrev oRowPts (d : Dev nD) (w : Fin 32) (f : Buf (Elt F) (oLoc d)) : sProp 𝕄 := oLoc d ↦[oRowSet w]{fullShare} f

/-- The number of the task on vector subcore `s` of SparseCore `c`. -/
def taskOf (c : Fin 2) (s : Fin 16) : Fin 32 := ⟨16 * c.val + s.val, by omega⟩

/-- What task `w` is handed: its band of the index vector, its share of the table, its band of the result as launched; -/
abbrev taskGo (d : Dev nD) (w : Fin 32) : sProp 𝕄 := iprop(iRowPts m d w ∗ xShPts m d w ∗ oRowPts d w (m (oLoc d)))
/-- and what it hands back: the same, its band of the result at the rows looked up. -/
abbrev taskTd (d : Dev nD) (w : Fin 32) : sProp 𝕄 := iprop(iRowPts m d w ∗ xShPts m d w ∗ oRowPts d w (Gout m d))

/-- A SparseCore is handed its sixteen tasks' parts and hands them back; a task its own. -/
def P : (K (F := F)).Pay (nD := nD) (Val := Elt F) (Name := ℕ) (U := UU) where
  st := fun q d c => match q with | 0 => bigSep Finset.univ fun s : Fin 16 => taskGo m d (taskOf (Fin.cast nCore_zero c) s)
  dn := fun q d c => match q with | 0 => bigSep Finset.univ fun s : Fin 16 => taskTd m d (taskOf (Fin.cast nCore_zero c) s)
  go := fun q d c i => match q with | 0 => taskGo m d (taskOf (Fin.cast nCore_zero c) (Fin.cast nSub_zero i))
  td := fun q d c i => match q with | 0 => taskTd m d (taskOf (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun s : Fin 16 => taskGo m d (taskOf (Fin.cast nCore_zero c) s)))
  dn q d c := match q with
    | 0 => (inferInstance : BI.Storable (upEmb : UEmb _ 𝕄) (bigSep Finset.univ fun s : Fin 16 => taskTd m d (taskOf (Fin.cast nCore_zero c) s)))
  go q d c i := match q with
    | 0 => (inferInstance : BI.Storable (upEmb : UEmb _ 𝕄) (taskGo m d (taskOf (Fin.cast nCore_zero c) (Fin.cast nSub_zero i))))
  td q d c i := match q with
    | 0 => (inferInstance : BI.Storable (upEmb : UEmb _ 𝕄) (taskTd m d (taskOf (Fin.cast nCore_zero c) (Fin.cast nSub_zero i))))

/-- What the proof asks of the launch memory: every index word names a row of the table. -/
def PreOK : Prop := ∀ d : Dev nD, Cert.Spec.InRange (m (iLoc d))

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
/-- The number of the task at grid point `L`. -/
def wL (L : grid0.Coords) : Fin 32 := taskOf (Fin.cast bound_zero (L 0)) (Fin.cast bound_one (L 1))
omit [FloatOps F] in
theorem wL_val (L : grid0.Coords) : (wL L).val = 16 * (L 0).val + (L 1).val := rfl

abbrev irowK (L : grid0.Coords) : Rect S16384 := Rect.unit (s := S16384) (k0_off1 L) S512.size (k0_off1_inb L)
abbrev orowK (L : grid0.Coords) : Rect S16384x128 := Rect.unit (s := S16384x128) (k0_off2 L) S512x128.size (k0_off2_inb L)
/-- The task's band of the index vector and of the result, and all of the table, as the task addresses them. -/
abbrev iRowK (L : grid0.Coords) : Memref sig .scVector .hbm S512 .i32 := (iV).slice (irowK L) (fun _ => rfl)
abbrev oRowK (L : grid0.Coords) : Memref sig .scVector .hbm S512x128 .f32 := (oV).slice (orowK L) (fun _ => rfl)
abbrev xAllK : Memref sig .scVector .hbm S100000x128 .f32 := (xV).slice (Rect.unit (s := S100000x128) ![0, 0] S100000x128.size inb_S100000x128_S100000x128_0_0) (fun _ => rfl)

omit [FloatOps F] in
/-- The task's slice of the index vector starts at 512 times its number: it is band `wL L`. -/
theorem irowK_eq : irowK L = irow (wL L) := by
  unfold irowK irow Rect.part Rect.block
  congr 1 <;> funext a
  · rw [k0_off1_eq]
    have hw := wL_val L
    match a with
    | 0 => simp [Shape.partIx, Shape.partSize]; omega
  · match a with
    | 0 => simp [Shape.partSize]
omit [FloatOps F] in
theorem orowK_eq : orowK L = orow (wL L) := by
  unfold orowK orow Rect.part Rect.block
  congr 1 <;> funext a
  · rw [k0_off2_eq]
    have hw := wL_val L
    match a with
    | 0 => simp [Shape.partIx, Shape.partSize]; omega
    | 1 => simp [Shape.partIx, Shape.partSize]
  · match a with
    | 0 => simp [Shape.partSize]
    | 1 => simp [Shape.partSize]

omit [FloatOps F] in
theorem set_iRowK : (iRowK L).view.set = iRowSet (wL L) := by
  show ((iV).view.slice (irowK L)).set = ((iV).view.slice (irow (wL L))).set
  rw [irowK_eq]
omit [FloatOps F] in
theorem set_oRowK : (oRowK L).view.set = oRowSet (wL L) := by
  show ((oV).view.slice (orowK L)).set = ((oV).view.slice (orow (wL L))).set
  rw [orowK_eq]

omit [FloatOps F] in
theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The task's three DMA semaphores: the index copy's, the gather's, the copy-out's. -/
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scratch3.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scratch3.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- An index of the index vector is its one coordinate. -/
theorem idx1_eta (j : S16384.Idx) : j = ValueIdx.ix1 (j 0) := by
  funext a
  match a with
  | 0 => rfl

/-- The words the gather reads are in range: what the index copy landed in the task's index buffer is its band of the
    index vector, whose every word names a row of the table. -/
theorem inb_of_pre (hpre : PreOK m) (fs : Buf (Elt F) ((V d (cV L) (jV L)).loc cc0_scratch0)) :
    ∀ x, ((sV).view.read (Elt F) (View.write (Elt F) (sV).view fs ((iRowK L).view.read (Elt F) (m (iLoc d))) Finset.univ) x).toNat
      < S100000x128.size gathers_S100000x128_S512x128.axis := by
  intro x
  rw [View.write_whole_univ]
  simp only [Memref.view_whole, View.read_whole]
  rw [show ∀ j, (iRowK L).view.read (Elt F) (m (iLoc d)) j = m (iLoc d) ((iRowK L).view.emb j) from fun j => (View.read_apply _ _).trans (cast_eq _ _)]
  have h := hpre d (((iRowK L).view.emb x) 0)
  have e := idx1_eta ((iRowK L).view.emb x)
  rw [e]
  exact h

end Tile

end Cert.Proof.KI

end
-- ==== Proof.KIValue.lean ====
/-
  What a task leaves in its band of the result. The copy out writes the row buffer over the band; the row buffer holds
  what the gather delivered, row `k` the table's row named by word `k` of the index buffer; the index buffer holds the
  task's band of the index vector. So entry `(512 w + k, q)` of the result is the table at the row that index word
  `512 w + k` names, column `q`: the lookup function, whatever the buffers held before.
-/
import proofs.«206635_g86930138071314_cont_sun_m_813_11_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_arg0_scv : Memref Cert.KernelIdeal.sig Kind.scVector Space.hbm Cert.KernelIdeal.S16384 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S16384x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

variable [FloatOps F]

section Tile

variable (d : Dev nD) (L : grid0.Coords)

omit [FloatOps F] in
/-- The first coordinate of the task's bands starts at the same entry in the index vector and in the result. -/
theorem off_eq : k0_off1 L 0 = k0_off2 L 0 := by rw [k0_off1_eq, k0_off2_eq]; rfl
omit [FloatOps F] in
theorem off2_one : k0_off2 L 1 = 0 := by rw [k0_off2_eq]; rfl

omit [FloatOps F] in
/-- The table's slice is the whole table: an index is its own. -/
theorem xAll_emb_val (z : S100000x128.Idx) (b : Fin 2) : ((xAllK).view.emb z b).val = (z b).val := by
  show (![0, 0] : Fin 2 → ℕ) b + 1 * (z b).val = (z b).val
  match b with
  | 0 => simp
  | 1 => simp
omit [FloatOps F] in
/-- An entry of the task's band of the result sits at the band's offset plus its own coordinate; -/
theorem oRow_emb_val (y : S512x128.Idx) (b : Fin 2) : ((oRowK L).view.emb y b).val = k0_off2 L b + (y b).val := by
  show k0_off2 L b + 1 * (y b).val = _
  rw [Nat.one_mul]
omit [FloatOps F] in
/-- and an entry of its band of the index vector likewise. -/
theorem iRow_emb_val (x : S512.Idx) : ((iRowK L).view.emb x 0).val = k0_off1 L 0 + (x 0).val := by
  show k0_off1 L 0 + 1 * (x 0).val = _
  rw [Nat.one_mul]
omit [FloatOps F] in
/-- The `k`-th entry of a vector in row-major order is entry `k`. -/
theorem rowMajor_symm_val (k : Fin S512.numel) : ((S512.rowMajor.symm k) 0).val = k.val := by
  have h := Shape.rowMajor_val_one (d := ![512]) (S512.rowMajor.symm k)
  rw [Equiv.apply_symm_apply] at h
  exact h.symm

/-- What the index buffer holds after the index copy, whatever it held before: the task's band of the index vector. -/
theorem list_apply (fs : Buf (Elt F) ((V d (cV L) (jV L)).loc cc0_scratch0)) (x : S512.Idx) :
    (sV).view.read (Elt F) (View.write (Elt F) (sV).view fs ((iRowK L).view.read (Elt F) (m (iLoc d))) Finset.univ) x
      = m (iLoc d) ((iRowK L).view.emb x) := by
  rw [View.write_whole_univ]
  simp only [Memref.view_whole, View.read_whole]
  exact (View.read_apply _ _).trans (cast_eq _ _)

/-- THE BAND'S VALUE: after the copy out, every entry of the task's band of the result is the lookup function's. -/
theorem band_value (hpre : PreOK m) (fs : Buf (Elt F) ((V d (cV L) (jV L)).loc cc0_scratch0)) (fr : Buf (Elt F) ((V d (cV L) (jV L)).loc cc0_scratch1))
    (hin : ∀ x, ((sV).view.read (Elt F) (View.write (Elt F) (sV).view fs ((iRowK L).view.read (Elt F) (m (iLoc d))) Finset.univ) x).toNat
      < S100000x128.size gathers_S100000x128_S512x128.axis)
    (pay : S512x128.Idx → Elt F .f32)
    (hpay : pay = (rV).view.read (Elt F) ((rV).view.writes (Elt F) fr [⟨Rect.whole S512x128, SparseCore.gatherPayload gathers_S100000x128_S512x128
        ((xAllK).view.read (Elt F) (m (xLoc d)))
        (SparseCore.rows ((sV).view.read (Elt F) (View.write (Elt F) (sV).view fs ((iRowK L).view.read (Elt F) (m (iLoc d))) Finset.univ)) rfl hin)⟩])) :
    ∀ j ∈ (oRowK L).view.set, (oRowK L).view.writes (Elt F) (m (oLoc d)) [⟨Rect.whole S512x128, pay⟩] j = Gout m d j := by
  subst hpay
  intro j hj
  obtain ⟨y, -, rfl⟩ := Finset.mem_map.mp hj
  -- the band at an entry of the slice is the copy's payload there
  refine (((View.read_apply _ _).trans (cast_eq _ _)).symm.trans (congrFun (View.read_writes_whole (oRowK L).view (m (oLoc d)) _) y)).trans ?_
  -- the payload is the row buffer's contents: what the gather delivered
  refine (congrFun (View.read_writes_whole (rV).view fr _) y).trans ?_
  unfold SparseCore.gatherPayload
  rw [show ∀ z, (xAllK).view.read (Elt F) (m (xLoc d)) z = m (xLoc d) ((xAllK).view.emb z) from fun z => (View.read_apply _ _).trans (cast_eq _ _)]
  show m (xLoc d) _ = m (xLoc d) _
  congr 1
  funext b
  apply Fin.ext
  rw [xAll_emb_val]
  match b with
  | 0 =>
    refine (congrArg Fin.val (Shape.Gathers.idx_axis gathers_S100000x128_S512x128 _ y)).trans ?_
    show (BitVec.toNat ((sV).view.read (Elt F) (View.write (Elt F) (sV).view fs ((iRowK L).view.read (Elt F) (m (iLoc d))) Finset.univ) _)) = _
    rw [list_apply]
    show _ = (Spec.rowOfWord (m (iLoc d) (ValueIdx.ix1 ((oRowK L).view.emb y 0)))).val
    refine Eq.trans ?_ (Cert.Spec.rowOfWord_val_of_lt _ (hpre d _)).symm
    refine congrArg (fun j : S16384.Idx => BitVec.toNat (m (iLoc d) j)) ?_
    refine (idx1_eta _).trans (congrArg ValueIdx.ix1 (Fin.ext ?_))
    rw [iRow_emb_val, oRow_emb_val, off_eq]
    exact congrArg (fun n => k0_off2 L 0 + n) (rowMajor_symm_val _)
  | 1 =>
    refine (Shape.Gathers.idx_of_ne gathers_S100000x128_S512x128 _ y 1 (by decide)).trans ?_
    show (y 1).val = ((oRowK L).view.emb y 1).val
    rw [oRow_emb_val, off2_one, Nat.zero_add]

end Tile

end Cert.Proof.KI

end
-- ==== Proof.KIBody.lean ====
/-
  One task of the lookup kernel, run: the copy of its band of the index vector into its index buffer and the wait for it,
  the gather of the table rows those words name into its row buffer and the wait for it, the copy of the row buffer onto
  its band of the result and the wait for it. The task hands back what it was handed, its band of the result now at the
  rows looked up.
-/
import proofs.«206635_g86930138071314_cont_sun_m_813_11_alg».proof.Proof.KIValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_arg0_scv : Memref Cert.KernelIdeal.sig Kind.scVector Space.hbm Cert.KernelIdeal.S16384 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S16384x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

variable [FloatOps F]

section Tile

variable (d : Dev nD) (L : grid0.Coords)

set_option maxHeartbeats 4000000 in
/-- The task on vector subcore `(L 0, L 1)`: the index copy and its wait, the gather of the named rows and its wait, the
    copy onto the result's band and its wait; the band ends at the rows looked up. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ taskGo m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_gather L iV (Memref.isWhole_whole _) xV (Memref.isWhole_whole _) oV (Memref.isWhole_whole _)
            sV (Memref.isWhole_whole _) rV (Memref.isWhole_whole _) cc0_scratch2 cc0_scratch3 cc0_scoped0)
          fun _ => iprop(taskTd m d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_gather_eq_skeleton]; unfold cc0_sc_gather_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  have hin := inb_of_pre m d L hpre
  sl_exec
  sl_step
  -- the band of the result holds the lookup function's entries
  have hval := band_value m d L hpre fs fr (hin fs) (tile_body.sl.dma0_1 m d L fs fr hin) rfl
  ihave Ho2 := (Entails.of_eq (pointsTo_congr (ℓ := (oRowK L).view.loc (V d (cV L) (jV L))) (q := fullShare) hval)) $$ Ho'
  isplitl [Hi' Hx' Ho2]
  · isplitl [Hi']; · iapply (Entails.of_eq (pts_iRowK (F := F) d L _)); iexact Hi'
    isplitl [Hx']; · iexact Hx'
    iapply (Entails.of_eq (pts_oRowK (F := F) d L _)); iexact Ho2
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.KI

end
-- ==== Proof.KILaunch.lean ====
/-
  The lookup kernel's run: the thirty-two tasks' parts are the whole arrays — the index vector and the result cut into
  bands, the table into shares —, so the TensorCore's call hands the two SparseCores everything and takes back the index
  vector and the table as launched and the result at the rows looked up, band by band one whole-array function.
-/
import proofs.«206635_g86930138071314_cont_sun_m_813_11_alg».proof.Proof.KIBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_arg0_scv : Memref Cert.KernelIdeal.sig Kind.scVector Space.hbm Cert.KernelIdeal.S16384 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S16384x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

variable [FloatOps F]

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_gather (coordsV c s)
          iV (Memref.isWhole_whole _) xV (Memref.isWhole_whole _) oV (Memref.isWhole_whole _)
          sV (Memref.isWhole_whole _) rV (Memref.isWhole_whole _) cc0_scratch2 cc0_scratch3 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## The bands split and join; the shares of the table -/

omit [FloatOps F] in
theorem iRowSet_eq (w : Fin 32) : iRowSet w = (irow w).set := by
  show ((View.whole (main_arg0_scv : Ref sig .scVector)).slice (irow w)).set = _
  rw [View.set_slice]; exact Finset.map_refl
omit [FloatOps F] in
theorem oRowSet_eq (w : Fin 32) : oRowSet w = (orow w).set := by
  show ((View.whole (main_v0_scv : Ref sig .scVector)).slice (orow w)).set = _
  rw [View.set_slice]; exact Finset.map_refl
omit [FloatOps F] in
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
omit [FloatOps F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] in
theorem irows_cover : (Finset.univ : Finset (Fin 32)).biUnion iRowSet = Finset.univ :=
  (Finset.biUnion_congr rfl fun i _ => iRowSet_eq i).trans (Rect.biUnion_part idiv)
omit [FloatOps F] in
theorem orows_cover : (Finset.univ : Finset (Fin 32)).biUnion oRowSet = Finset.univ :=
  (Finset.biUnion_congr rfl fun i _ => oRowSet_eq i).trans (Rect.biUnion_part odiv)

omit [FloatOps F] in
/-- An array held whole is its thirty-two bands held at once; -/
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
omit [FloatOps F] in
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl
omit [FloatOps F] in
/-- and the table held at the full share is held at its thirty-two pieces at once. -/
theorem xPts_shares (d : Dev nD) (f : Buf (Elt F) (xLoc d)) :
    (xLoc d ↦{fullShare} f : sProp 𝕄) = bigSep Finset.univ fun w : Fin 32 => xLoc d ↦{xq w} f :=
  pointsTo_piecesOf Finset.univ f (by norm_num) fullShare

/-- Sixteen and sixteen are thirty-two. -/
def sumEquiv : Fin 16 ⊕ Fin 16 ≃ Fin 32 := finSumFinEquiv.trans (finCongr (by norm_num))
omit m ρ [FloatOps F] in
theorem sumEquiv_inl (s : Fin 16) : sumEquiv (Sum.inl s) = taskOf 0 s := by
  apply Fin.ext
  show s.val = 16 * 0 + s.val
  omega
omit m ρ [FloatOps F] in
theorem sumEquiv_inr (s : Fin 16) : sumEquiv (Sum.inr s) = taskOf 1 s := by
  apply Fin.ext
  show 16 + s.val = 16 * 1 + s.val
  omega

omit m ρ [FloatOps F] in
/-- The tasks of SparseCore 0 and those of SparseCore 1 are the thirty-two tasks. -/
theorem bigSep_cores (Φ : Fin 32 → sProp 𝕄) :
    iprop((bigSep Finset.univ fun s : Fin 16 => Φ (taskOf 0 s)) ∗ (bigSep Finset.univ fun s : Fin 16 => Φ (taskOf 1 s))) = bigSep Finset.univ Φ := by
  rw [bigSep_univ_equiv sumEquiv Φ, bigSep_univ_sum]
  refine congrArg₂ _ (bigSep_congr fun s _ => ?_) (bigSep_congr fun s _ => ?_)
  · rw [sumEquiv_inl]
  · rw [sumEquiv_inr]

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's parts are its sixteen tasks' parts, both ways. -/
theorem vecSplit : (K (F := F)).VecSplit' (P m) 0 := by
  intro d c
  show (bigSep Finset.univ fun s : Fin 16 => taskGo m d (taskOf (Fin.cast nCore_zero c) s)) ⊢ |={Set.univ}=> iprop(
      (bigSep Finset.univ fun i : Fin ((K (F := F)).nSub 0) => taskGo m d (taskOf (Fin.cast nCore_zero c) (Fin.cast nSub_zero i)))
      ∗ ((bigSep Finset.univ fun i : Fin ((K (F := F)).nSub 0) => taskTd m d (taskOf (Fin.cast nCore_zero c) (Fin.cast nSub_zero i)))
          -∗ bigSep Finset.univ fun s : Fin 16 => taskTd m d (taskOf (Fin.cast nCore_zero c) s)))
  rw [bigSep_tasks (F := F) (fun s => taskGo m d (taskOf (Fin.cast nCore_zero c) s)),
    bigSep_tasks (F := F) (fun s => taskTd m d (taskOf (Fin.cast nCore_zero c) s))]
  iintro H; imodintro
  isplitl [H]; · iexact H
  iintro H; iexact H

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

omit [FloatOps F] in
/-- Thirty-two tasks' bands and shares, held at once, are the three arrays held whole. -/
theorem tasks_whole (d : Dev nD) (g : Buf (Elt F) (oLoc d)) :
    (bigSep Finset.univ fun w : Fin 32 => iprop(iRowPts m d w ∗ xShPts m d w ∗ oRowPts d w g)) = iprop(iPts m d ∗ xPts m d ∗ oPts d g) := by
  rw [bigSep_sep', bigSep_sep']
  unfold iPts xPts oPts iRowPts xShPts oRowPts
  rw [iPts_rows, xPts_shares, oPts_rows]

theorem st0_eq (d : Dev nD) : (bigSep Finset.univ fun c : Fin ((K (F := F)).nCore 0) => (P m).st 0 d c) = iprop(iPts m d ∗ xPts m d ∗ oPts d (m (oLoc d))) := by
  show (bigSep (Finset.univ : Finset (Fin 2)) fun c => bigSep Finset.univ fun s : Fin 16 => taskGo m d (taskOf c s)) = _
  rw [show (Finset.univ : Finset (Fin 2)) = {0, 1} by decide, SparseCore.bigSep_insert' (by decide), bigSep_singleton,
    bigSep_cores (fun w => taskGo m d w), tasks_whole]
theorem dn0_eq (d : Dev nD) : (bigSep Finset.univ fun c : Fin ((K (F := F)).nCore 0) => (P m).dn 0 d c) = iprop(iPts m d ∗ xPts m d ∗ oPts d (Gout m d)) := by
  show (bigSep (Finset.univ : Finset (Fin 2)) fun c => bigSep Finset.univ fun s : Fin 16 => taskTd m d (taskOf c s)) = _
  rw [show (Finset.univ : Finset (Fin 2)) = {0, 1} by decide, SparseCore.bigSep_insert' (by decide), bigSep_singleton,
    bigSep_cores (fun w => taskTd m d w), tasks_whole]

/-- What @main leaves the claim: the index vector and the table as launched, the result at the rows looked up. -/
abbrev FIN (d : Dev nD) : sProp 𝕄 := iprop(iPts m d ∗ xPts m d ∗ oPts d (Gout m d))

/-- @main on device `d`'s TensorCore: the one call, from the three arrays held whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hx, Ho⟩, -, -⟩, -⟩
  iapply ((K (F := F)).wp_run (D (F := F)) 𝒱 (EH := EH) (P := P m) κ d 0) $$ [Hst Hi Hx Ho]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  imodintro
  isplitl [Hst]; · iexact Hst
  isplitl [Hi]; · iexact Hi
  isplitl [Hx]; · iexact Hx
  iexact Ho

def fq (d : Dev nD) (s' : Phys nD τ sig (Elt F)) : Prop :=
  s'.mem.mem (oLoc d) = Gout m d ∧ s'.mem.mem (iLoc d) = m (iLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := Gout m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = Gout m c ∧ r.2.mem (iLoc c) = m (iLoc c) ∧ r.2.mem (xLoc c) = m (xLoc c)

/-- Every weakly fair execution of the device's threads ends, faulting nowhere, with the result at the rows looked up
    and the index vector and the table unchanged. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KBSetup.lean ====
/-
  The lookup kernel on the SparseCores: thirty-two tasks (two SparseCores of sixteen vector subcores) each own 512
  consecutive entries of the index vector and the 512 rows of the result with the same numbers. Here: the bands and the
  shares the arrays are cut into, what each task is handed and hands back, the task's slices as it addresses them, and
  that the index words a task fetches name rows of the table.
-/
import proofs.«206635_g86930138071314_cont_sun_m_813_11_alg».proof.Defs
import proofs.«206635_g86930138071314_cont_sun_m_813_11_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206635_g86930138071314_cont_sun_m_813_11_alg».proof.Proof.Gen.Kernel
import proofs.«206635_g86930138071314_cont_sun_m_813_11_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

local notation "iV" => (Memref.whole Cert.Kernel.main_arg0_scv : Memref Cert.Kernel.sig Kind.scVector Space.hbm Cert.Kernel.S16384 EltTy.i32)
local notation "xV" => (Memref.whole Cert.Kernel.main_arg1_scv : Memref Cert.Kernel.sig Kind.scVector Space.hbm Cert.Kernel.S100000x128 EltTy.f32)
local notation "oV" => (Memref.whole Cert.Kernel.main_v0_scv : Memref Cert.Kernel.sig Kind.scVector Space.hbm Cert.Kernel.S16384x128 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)

/-- The index vector and the result cut into thirty-two bands of 512 along their first axis: band `w` is task `w`'s. -/
theorem idiv : 32 ∣ S16384.size 0 := ⟨512, rfl⟩
theorem odiv : 32 ∣ S16384x128.size 0 := ⟨512, rfl⟩
abbrev irow (w : Fin 32) : Rect S16384 := Rect.part (s := S16384) (a₀ := 0) idiv w
abbrev orow (w : Fin 32) : Rect S16384x128 := Rect.part (s := S16384x128) (a₀ := 0) odiv w
abbrev iRowSet (w : Fin 32) : Finset S16384.Idx := ((iV).view.slice (irow w)).set
abbrev oRowSet (w : Fin 32) : Finset S16384x128.Idx := ((oV).view.slice (orow w)).set

/-- Task `w`'s share of the table: the full share cut into thirty-two pieces. -/
abbrev xq (w : Fin 32) : PosShare TreeShare := pieceOf fullShare 32 (by norm_num) w

variable [FloatOps F]

/-! ## The result, and what the handshakes carry -/

/-- The result array: the rows looked up, as a function of the launch contents of the index vector and the table. -/
def Gout (d : Dev nD) : Buf (Elt F) (oLoc d) := Cert.Spec.lookup (α := Elt F .f32) (m (iLoc d)) (m (xLoc d))

abbrev iPts (d : Dev nD) : sProp 𝕄 := iLoc d ↦{fullShare} m (iLoc d)
abbrev xPts (d : Dev nD) : sProp 𝕄 := xLoc d ↦{fullShare} m (xLoc d)
abbrev oPts (d : Dev nD) (f : Buf (Elt F) (oLoc d)) : sProp 𝕄 := oLoc d ↦{fullShare} f
abbrev iRowPts (d : Dev nD) (w : Fin 32) : sProp 𝕄 := iLoc d ↦[iRowSet w]{fullShare} m (iLoc d)
abbrev xShPts (d : Dev nD) (w : Fin 32) : sProp 𝕄 := xLoc d ↦{xq w} m (xLoc d)
abbrev oRowPts (d : Dev nD) (w : Fin 32) (f : Buf (Elt F) (oLoc d)) : sProp 𝕄 := oLoc d ↦[oRowSet w]{fullShare} f

/-- The number of the task on vector subcore `s` of SparseCore `c`. -/
def taskOf (c : Fin 2) (s : Fin 16) : Fin 32 := ⟨16 * c.val + s.val, by omega⟩

/-- What task `w` is handed: its band of the index vector, its share of the table, its band of the result as launched; -/
abbrev taskGo (d : Dev nD) (w : Fin 32) : sProp 𝕄 := iprop(iRowPts m d w ∗ xShPts m d w ∗ oRowPts d w (m (oLoc d)))
/-- and what it hands back: the same, its band of the result at the rows looked up. -/
abbrev taskTd (d : Dev nD) (w : Fin 32) : sProp 𝕄 := iprop(iRowPts m d w ∗ xShPts m d w ∗ oRowPts d w (Gout m d))

/-- A SparseCore is handed its sixteen tasks' parts and hands them back; a task its own. -/
def P : (K (F := F)).Pay (nD := nD) (Val := Elt F) (Name := ℕ) (U := UU) where
  st := fun q d c => match q with | 0 => bigSep Finset.univ fun s : Fin 16 => taskGo m d (taskOf (Fin.cast nCore_zero c) s)
  dn := fun q d c => match q with | 0 => bigSep Finset.univ fun s : Fin 16 => taskTd m d (taskOf (Fin.cast nCore_zero c) s)
  go := fun q d c i => match q with | 0 => taskGo m d (taskOf (Fin.cast nCore_zero c) (Fin.cast nSub_zero i))
  td := fun q d c i => match q with | 0 => taskTd m d (taskOf (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun s : Fin 16 => taskGo m d (taskOf (Fin.cast nCore_zero c) s)))
  dn q d c := match q with
    | 0 => (inferInstance : BI.Storable (upEmb : UEmb _ 𝕄) (bigSep Finset.univ fun s : Fin 16 => taskTd m d (taskOf (Fin.cast nCore_zero c) s)))
  go q d c i := match q with
    | 0 => (inferInstance : BI.Storable (upEmb : UEmb _ 𝕄) (taskGo m d (taskOf (Fin.cast nCore_zero c) (Fin.cast nSub_zero i))))
  td q d c i := match q with
    | 0 => (inferInstance : BI.Storable (upEmb : UEmb _ 𝕄) (taskTd m d (taskOf (Fin.cast nCore_zero c) (Fin.cast nSub_zero i))))

/-- What the proof asks of the launch memory: every index word names a row of the table. -/
def PreOK : Prop := ∀ d : Dev nD, Cert.Spec.InRange (m (iLoc d))

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
/-- The number of the task at grid point `L`. -/
def wL (L : grid0.Coords) : Fin 32 := taskOf (Fin.cast bound_zero (L 0)) (Fin.cast bound_one (L 1))
omit [FloatOps F] in
theorem wL_val (L : grid0.Coords) : (wL L).val = 16 * (L 0).val + (L 1).val := rfl

abbrev irowK (L : grid0.Coords) : Rect S16384 := Rect.unit (s := S16384) (k0_off1 L) S512.size (k0_off1_inb L)
abbrev orowK (L : grid0.Coords) : Rect S16384x128 := Rect.unit (s := S16384x128) (k0_off2 L) S512x128.size (k0_off2_inb L)
/-- The task's band of the index vector and of the result, and all of the table, as the task addresses them. -/
abbrev iRowK (L : grid0.Coords) : Memref sig .scVector .hbm S512 .i32 := (iV).slice (irowK L) (fun _ => rfl)
abbrev oRowK (L : grid0.Coords) : Memref sig .scVector .hbm S512x128 .f32 := (oV).slice (orowK L) (fun _ => rfl)
abbrev xAllK : Memref sig .scVector .hbm S100000x128 .f32 := (xV).slice (Rect.unit (s := S100000x128) ![0, 0] S100000x128.size inb_S100000x128_S100000x128_0_0) (fun _ => rfl)

omit [FloatOps F] in
/-- The task's slice of the index vector starts at 512 times its number: it is band `wL L`. -/
theorem irowK_eq : irowK L = irow (wL L) := by
  unfold irowK irow Rect.part Rect.block
  congr 1 <;> funext a
  · rw [k0_off1_eq]
    have hw := wL_val L
    match a with
    | 0 => simp [Shape.partIx, Shape.partSize]; omega
  · match a with
    | 0 => simp [Shape.partSize]
omit [FloatOps F] in
theorem orowK_eq : orowK L = orow (wL L) := by
  unfold orowK orow Rect.part Rect.block
  congr 1 <;> funext a
  · rw [k0_off2_eq]
    have hw := wL_val L
    match a with
    | 0 => simp [Shape.partIx, Shape.partSize]; omega
    | 1 => simp [Shape.partIx, Shape.partSize]
  · match a with
    | 0 => simp [Shape.partSize]
    | 1 => simp [Shape.partSize]

omit [FloatOps F] in
theorem set_iRowK : (iRowK L).view.set = iRowSet (wL L) := by
  show ((iV).view.slice (irowK L)).set = ((iV).view.slice (irow (wL L))).set
  rw [irowK_eq]
omit [FloatOps F] in
theorem set_oRowK : (oRowK L).view.set = oRowSet (wL L) := by
  show ((oV).view.slice (orowK L)).set = ((oV).view.slice (orow (wL L))).set
  rw [orowK_eq]

omit [FloatOps F] in
theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The task's three DMA semaphores: the index copy's, the gather's, the copy-out's. -/
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scratch3.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scratch3.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- An index of the index vector is its one coordinate. -/
theorem idx1_eta (j : S16384.Idx) : j = ValueIdx.ix1 (j 0) := by
  funext a
  match a with
  | 0 => rfl

/-- The words the gather reads are in range: what the index copy landed in the task's index buffer is its band of the
    index vector, whose every word names a row of the table. -/
theorem inb_of_pre (hpre : PreOK m) (fs : Buf (Elt F) ((V d (cV L) (jV L)).loc cc0_scratch0)) :
    ∀ x, ((sV).view.read (Elt F) (View.write (Elt F) (sV).view fs ((iRowK L).view.read (Elt F) (m (iLoc d))) Finset.univ) x).toNat
      < S100000x128.size gathers_S100000x128_S512x128.axis := by
  intro x
  rw [View.write_whole_univ]
  simp only [Memref.view_whole, View.read_whole]
  rw [show ∀ j, (iRowK L).view.read (Elt F) (m (iLoc d)) j = m (iLoc d) ((iRowK L).view.emb j) from fun j => (View.read_apply _ _).trans (cast_eq _ _)]
  have h := hpre d (((iRowK L).view.emb x) 0)
  have e := idx1_eta ((iRowK L).view.emb x)
  rw [e]
  exact h

end Tile

end Cert.Proof.KB

end
-- ==== Proof.KBValue.lean ====
/-
  What a task leaves in its band of the result. The copy out writes the row buffer over the band; the row buffer holds
  what the gather delivered, row `k` the table's row named by word `k` of the index buffer; the index buffer holds the
  task's band of the index vector. So entry `(512 w + k, q)` of the result is the table at the row that index word
  `512 w + k` names, column `q`: the lookup function, whatever the buffers held before.
-/
import proofs.«206635_g86930138071314_cont_sun_m_813_11_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_arg0_scv : Memref Cert.Kernel.sig Kind.scVector Space.hbm Cert.Kernel.S16384 EltTy.i32)
local notation "xV" => (Memref.whole Cert.Kernel.main_arg1_scv : Memref Cert.Kernel.sig Kind.scVector Space.hbm Cert.Kernel.S100000x128 EltTy.f32)
local notation "oV" => (Memref.whole Cert.Kernel.main_v0_scv : Memref Cert.Kernel.sig Kind.scVector Space.hbm Cert.Kernel.S16384x128 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)

variable [FloatOps F]

section Tile

variable (d : Dev nD) (L : grid0.Coords)

omit [FloatOps F] in
/-- The first coordinate of the task's bands starts at the same entry in the index vector and in the result. -/
theorem off_eq : k0_off1 L 0 = k0_off2 L 0 := by rw [k0_off1_eq, k0_off2_eq]; rfl
omit [FloatOps F] in
theorem off2_one : k0_off2 L 1 = 0 := by rw [k0_off2_eq]; rfl

omit [FloatOps F] in
/-- The table's slice is the whole table: an index is its own. -/
theorem xAll_emb_val (z : S100000x128.Idx) (b : Fin 2) : ((xAllK).view.emb z b).val = (z b).val := by
  show (![0, 0] : Fin 2 → ℕ) b + 1 * (z b).val = (z b).val
  match b with
  | 0 => simp
  | 1 => simp
omit [FloatOps F] in
/-- An entry of the task's band of the result sits at the band's offset plus its own coordinate; -/
theorem oRow_emb_val (y : S512x128.Idx) (b : Fin 2) : ((oRowK L).view.emb y b).val = k0_off2 L b + (y b).val := by
  show k0_off2 L b + 1 * (y b).val = _
  rw [Nat.one_mul]
omit [FloatOps F] in
/-- and an entry of its band of the index vector likewise. -/
theorem iRow_emb_val (x : S512.Idx) : ((iRowK L).view.emb x 0).val = k0_off1 L 0 + (x 0).val := by
  show k0_off1 L 0 + 1 * (x 0).val = _
  rw [Nat.one_mul]
omit [FloatOps F] in
/-- The `k`-th entry of a vector in row-major order is entry `k`. -/
theorem rowMajor_symm_val (k : Fin S512.numel) : ((S512.rowMajor.symm k) 0).val = k.val := by
  have h := Shape.rowMajor_val_one (d := ![512]) (S512.rowMajor.symm k)
  rw [Equiv.apply_symm_apply] at h
  exact h.symm

/-- What the index buffer holds after the index copy, whatever it held before: the task's band of the index vector. -/
theorem list_apply (fs : Buf (Elt F) ((V d (cV L) (jV L)).loc cc0_scratch0)) (x : S512.Idx) :
    (sV).view.read (Elt F) (View.write (Elt F) (sV).view fs ((iRowK L).view.read (Elt F) (m (iLoc d))) Finset.univ) x
      = m (iLoc d) ((iRowK L).view.emb x) := by
  rw [View.write_whole_univ]
  simp only [Memref.view_whole, View.read_whole]
  exact (View.read_apply _ _).trans (cast_eq _ _)

/-- THE BAND'S VALUE: after the copy out, every entry of the task's band of the result is the lookup function's. -/
theorem band_value (hpre : PreOK m) (fs : Buf (Elt F) ((V d (cV L) (jV L)).loc cc0_scratch0)) (fr : Buf (Elt F) ((V d (cV L) (jV L)).loc cc0_scratch1))
    (hin : ∀ x, ((sV).view.read (Elt F) (View.write (Elt F) (sV).view fs ((iRowK L).view.read (Elt F) (m (iLoc d))) Finset.univ) x).toNat
      < S100000x128.size gathers_S100000x128_S512x128.axis)
    (pay : S512x128.Idx → Elt F .f32)
    (hpay : pay = (rV).view.read (Elt F) ((rV).view.writes (Elt F) fr [⟨Rect.whole S512x128, SparseCore.gatherPayload gathers_S100000x128_S512x128
        ((xAllK).view.read (Elt F) (m (xLoc d)))
        (SparseCore.rows ((sV).view.read (Elt F) (View.write (Elt F) (sV).view fs ((iRowK L).view.read (Elt F) (m (iLoc d))) Finset.univ)) rfl hin)⟩])) :
    ∀ j ∈ (oRowK L).view.set, (oRowK L).view.writes (Elt F) (m (oLoc d)) [⟨Rect.whole S512x128, pay⟩] j = Gout m d j := by
  subst hpay
  intro j hj
  obtain ⟨y, -, rfl⟩ := Finset.mem_map.mp hj
  -- the band at an entry of the slice is the copy's payload there
  refine (((View.read_apply _ _).trans (cast_eq _ _)).symm.trans (congrFun (View.read_writes_whole (oRowK L).view (m (oLoc d)) _) y)).trans ?_
  -- the payload is the row buffer's contents: what the gather delivered
  refine (congrFun (View.read_writes_whole (rV).view fr _) y).trans ?_
  unfold SparseCore.gatherPayload
  rw [show ∀ z, (xAllK).view.read (Elt F) (m (xLoc d)) z = m (xLoc d) ((xAllK).view.emb z) from fun z => (View.read_apply _ _).trans (cast_eq _ _)]
  show m (xLoc d) _ = m (xLoc d) _
  congr 1
  funext b
  apply Fin.ext
  rw [xAll_emb_val]
  match b with
  | 0 =>
    refine (congrArg Fin.val (Shape.Gathers.idx_axis gathers_S100000x128_S512x128 _ y)).trans ?_
    show (BitVec.toNat ((sV).view.read (Elt F) (View.write (Elt F) (sV).view fs ((iRowK L).view.read (Elt F) (m (iLoc d))) Finset.univ) _)) = _
    rw [list_apply]
    show _ = (Spec.rowOfWord (m (iLoc d) (ValueIdx.ix1 ((oRowK L).view.emb y 0)))).val
    refine Eq.trans ?_ (Cert.Spec.rowOfWord_val_of_lt _ (hpre d _)).symm
    refine congrArg (fun j : S16384.Idx => BitVec.toNat (m (iLoc d) j)) ?_
    refine (idx1_eta _).trans (congrArg ValueIdx.ix1 (Fin.ext ?_))
    rw [iRow_emb_val, oRow_emb_val, off_eq]
    exact congrArg (fun n => k0_off2 L 0 + n) (rowMajor_symm_val _)
  | 1 =>
    refine (Shape.Gathers.idx_of_ne gathers_S100000x128_S512x128 _ y 1 (by decide)).trans ?_
    show (y 1).val = ((oRowK L).view.emb y 1).val
    rw [oRow_emb_val, off2_one, Nat.zero_add]

end Tile

end Cert.Proof.KB

end
-- ==== Proof.KBBody.lean ====
/-
  One task of the lookup kernel, run: the copy of its band of the index vector into its index buffer and the wait for it,
  the gather of the table rows those words name into its row buffer and the wait for it, the copy of the row buffer onto
  its band of the result and the wait for it. The task hands back what it was handed, its band of the result now at the
  rows looked up.
-/
import proofs.«206635_g86930138071314_cont_sun_m_813_11_alg».proof.Proof.KBValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_arg0_scv : Memref Cert.Kernel.sig Kind.scVector Space.hbm Cert.Kernel.S16384 EltTy.i32)
local notation "xV" => (Memref.whole Cert.Kernel.main_arg1_scv : Memref Cert.Kernel.sig Kind.scVector Space.hbm Cert.Kernel.S100000x128 EltTy.f32)
local notation "oV" => (Memref.whole Cert.Kernel.main_v0_scv : Memref Cert.Kernel.sig Kind.scVector Space.hbm Cert.Kernel.S16384x128 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)

variable [FloatOps F]

section Tile

variable (d : Dev nD) (L : grid0.Coords)

set_option maxHeartbeats 4000000 in
/-- The task on vector subcore `(L 0, L 1)`: the index copy and its wait, the gather of the named rows and its wait, the
    copy onto the result's band and its wait; the band ends at the rows looked up. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ taskGo m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_gather L iV (Memref.isWhole_whole _) xV (Memref.isWhole_whole _) oV (Memref.isWhole_whole _)
            sV (Memref.isWhole_whole _) rV (Memref.isWhole_whole _) cc0_scratch2 cc0_scratch3 cc0_scoped0)
          fun _ => iprop(taskTd m d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_gather_eq_skeleton]; unfold cc0_sc_gather_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  have hin := inb_of_pre m d L hpre
  sl_exec
  sl_step
  -- the band of the result holds the lookup function's entries
  have hval := band_value m d L hpre fs fr (hin fs) (tile_body.sl.dma0_1 m d L fs fr hin) rfl
  ihave Ho2 := (Entails.of_eq (pointsTo_congr (ℓ := (oRowK L).view.loc (V d (cV L) (jV L))) (q := fullShare) hval)) $$ Ho'
  isplitl [Hi' Hx' Ho2]
  · isplitl [Hi']; · iapply (Entails.of_eq (pts_iRowK (F := F) d L _)); iexact Hi'
    isplitl [Hx']; · iexact Hx'
    iapply (Entails.of_eq (pts_oRowK (F := F) d L _)); iexact Ho2
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.KB

end
-- ==== Proof.KBLaunch.lean ====
/-
  The lookup kernel's run: the thirty-two tasks' parts are the whole arrays — the index vector and the result cut into
  bands, the table into shares —, so the TensorCore's call hands the two SparseCores everything and takes back the index
  vector and the table as launched and the result at the rows looked up, band by band one whole-array function.
-/
import proofs.«206635_g86930138071314_cont_sun_m_813_11_alg».proof.Proof.KBBody

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_arg0_scv : Memref Cert.Kernel.sig Kind.scVector Space.hbm Cert.Kernel.S16384 EltTy.i32)
local notation "xV" => (Memref.whole Cert.Kernel.main_arg1_scv : Memref Cert.Kernel.sig Kind.scVector Space.hbm Cert.Kernel.S100000x128 EltTy.f32)
local notation "oV" => (Memref.whole Cert.Kernel.main_v0_scv : Memref Cert.Kernel.sig Kind.scVector Space.hbm Cert.Kernel.S16384x128 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)

variable [FloatOps F]

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_gather (coordsV c s)
          iV (Memref.isWhole_whole _) xV (Memref.isWhole_whole _) oV (Memref.isWhole_whole _)
          sV (Memref.isWhole_whole _) rV (Memref.isWhole_whole _) cc0_scratch2 cc0_scratch3 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## The bands split and join; the shares of the table -/

omit [FloatOps F] in
theorem iRowSet_eq (w : Fin 32) : iRowSet w = (irow w).set := by
  show ((View.whole (main_arg0_scv : Ref sig .scVector)).slice (irow w)).set = _
  rw [View.set_slice]; exact Finset.map_refl
omit [FloatOps F] in
theorem oRowSet_eq (w : Fin 32) : oRowSet w = (orow w).set := by
  show ((View.whole (main_v0_scv : Ref sig .scVector)).slice (orow w)).set = _
  rw [View.set_slice]; exact Finset.map_refl
omit [FloatOps F] in
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
omit [FloatOps F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] in
theorem irows_cover : (Finset.univ : Finset (Fin 32)).biUnion iRowSet = Finset.univ :=
  (Finset.biUnion_congr rfl fun i _ => iRowSet_eq i).trans (Rect.biUnion_part idiv)
omit [FloatOps F] in
theorem orows_cover : (Finset.univ : Finset (Fin 32)).biUnion oRowSet = Finset.univ :=
  (Finset.biUnion_congr rfl fun i _ => oRowSet_eq i).trans (Rect.biUnion_part odiv)

omit [FloatOps F] in
/-- An array held whole is its thirty-two bands held at once; -/
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
omit [FloatOps F] in
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl
omit [FloatOps F] in
/-- and the table held at the full share is held at its thirty-two pieces at once. -/
theorem xPts_shares (d : Dev nD) (f : Buf (Elt F) (xLoc d)) :
    (xLoc d ↦{fullShare} f : sProp 𝕄) = bigSep Finset.univ fun w : Fin 32 => xLoc d ↦{xq w} f :=
  pointsTo_piecesOf Finset.univ f (by norm_num) fullShare

/-- Sixteen and sixteen are thirty-two. -/
def sumEquiv : Fin 16 ⊕ Fin 16 ≃ Fin 32 := finSumFinEquiv.trans (finCongr (by norm_num))
omit m ρ [FloatOps F] in
theorem sumEquiv_inl (s : Fin 16) : sumEquiv (Sum.inl s) = taskOf 0 s := by
  apply Fin.ext
  show s.val = 16 * 0 + s.val
  omega
omit m ρ [FloatOps F] in
theorem sumEquiv_inr (s : Fin 16) : sumEquiv (Sum.inr s) = taskOf 1 s := by
  apply Fin.ext
  show 16 + s.val = 16 * 1 + s.val
  omega

omit m ρ [FloatOps F] in
/-- The tasks of SparseCore 0 and those of SparseCore 1 are the thirty-two tasks. -/
theorem bigSep_cores (Φ : Fin 32 → sProp 𝕄) :
    iprop((bigSep Finset.univ fun s : Fin 16 => Φ (taskOf 0 s)) ∗ (bigSep Finset.univ fun s : Fin 16 => Φ (taskOf 1 s))) = bigSep Finset.univ Φ := by
  rw [bigSep_univ_equiv sumEquiv Φ, bigSep_univ_sum]
  refine congrArg₂ _ (bigSep_congr fun s _ => ?_) (bigSep_congr fun s _ => ?_)
  · rw [sumEquiv_inl]
  · rw [sumEquiv_inr]

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's parts are its sixteen tasks' parts, both ways. -/
theorem vecSplit : (K (F := F)).VecSplit' (P m) 0 := by
  intro d c
  show (bigSep Finset.univ fun s : Fin 16 => taskGo m d (taskOf (Fin.cast nCore_zero c) s)) ⊢ |={Set.univ}=> iprop(
      (bigSep Finset.univ fun i : Fin ((K (F := F)).nSub 0) => taskGo m d (taskOf (Fin.cast nCore_zero c) (Fin.cast nSub_zero i)))
      ∗ ((bigSep Finset.univ fun i : Fin ((K (F := F)).nSub 0) => taskTd m d (taskOf (Fin.cast nCore_zero c) (Fin.cast nSub_zero i)))
          -∗ bigSep Finset.univ fun s : Fin 16 => taskTd m d (taskOf (Fin.cast nCore_zero c) s)))
  rw [bigSep_tasks (F := F) (fun s => taskGo m d (taskOf (Fin.cast nCore_zero c) s)),
    bigSep_tasks (F := F) (fun s => taskTd m d (taskOf (Fin.cast nCore_zero c) s))]
  iintro H; imodintro
  isplitl [H]; · iexact H
  iintro H; iexact H

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

omit [FloatOps F] in
/-- Thirty-two tasks' bands and shares, held at once, are the three arrays held whole. -/
theorem tasks_whole (d : Dev nD) (g : Buf (Elt F) (oLoc d)) :
    (bigSep Finset.univ fun w : Fin 32 => iprop(iRowPts m d w ∗ xShPts m d w ∗ oRowPts d w g)) = iprop(iPts m d ∗ xPts m d ∗ oPts d g) := by
  rw [bigSep_sep', bigSep_sep']
  unfold iPts xPts oPts iRowPts xShPts oRowPts
  rw [iPts_rows, xPts_shares, oPts_rows]

theorem st0_eq (d : Dev nD) : (bigSep Finset.univ fun c : Fin ((K (F := F)).nCore 0) => (P m).st 0 d c) = iprop(iPts m d ∗ xPts m d ∗ oPts d (m (oLoc d))) := by
  show (bigSep (Finset.univ : Finset (Fin 2)) fun c => bigSep Finset.univ fun s : Fin 16 => taskGo m d (taskOf c s)) = _
  rw [show (Finset.univ : Finset (Fin 2)) = {0, 1} by decide, SparseCore.bigSep_insert' (by decide), bigSep_singleton,
    bigSep_cores (fun w => taskGo m d w), tasks_whole]
theorem dn0_eq (d : Dev nD) : (bigSep Finset.univ fun c : Fin ((K (F := F)).nCore 0) => (P m).dn 0 d c) = iprop(iPts m d ∗ xPts m d ∗ oPts d (Gout m d)) := by
  show (bigSep (Finset.univ : Finset (Fin 2)) fun c => bigSep Finset.univ fun s : Fin 16 => taskTd m d (taskOf c s)) = _
  rw [show (Finset.univ : Finset (Fin 2)) = {0, 1} by decide, SparseCore.bigSep_insert' (by decide), bigSep_singleton,
    bigSep_cores (fun w => taskTd m d w), tasks_whole]

/-- What @main leaves the claim: the index vector and the table as launched, the result at the rows looked up. -/
abbrev FIN (d : Dev nD) : sProp 𝕄 := iprop(iPts m d ∗ xPts m d ∗ oPts d (Gout m d))

/-- @main on device `d`'s TensorCore: the one call, from the three arrays held whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hx, Ho⟩, -, -⟩, -⟩
  iapply ((K (F := F)).wp_run (D (F := F)) 𝒱 (EH := EH) (P := P m) κ d 0) $$ [Hst Hi Hx Ho]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  imodintro
  isplitl [Hst]; · iexact Hst
  isplitl [Hi]; · iexact Hi
  isplitl [Hx]; · iexact Hx
  iexact Ho

def fq (d : Dev nD) (s' : Phys nD τ sig (Elt F)) : Prop :=
  s'.mem.mem (oLoc d) = Gout m d ∧ s'.mem.mem (iLoc d) = m (iLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := Gout m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = Gout m c ∧ r.2.mem (iLoc c) = m (iLoc c) ∧ r.2.mem (xLoc c) = m (xLoc c)

/-- Every weakly fair execution of the device's threads ends, faulting nowhere, with the result at the rows looked up
    and the index vector and the table unchanged. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.PreOK.lean ====
/-
  What the precondition says of the index words.

  The precondition's second conjunct is the conjunction, over all 16384 index words, of "the word, read signed, is
  at least 0 and at most 99999". A conjunction that is 1 had a 1 at every entry, and a word between 0 and 99999 read
  signed is its own value read unsigned, below 100000: every index word names a row of the table.
-/
import proofs.«206635_g86930138071314_cont_sun_m_813_11_alg».proof.Pre_input_domain
import proofs.«206635_g86930138071314_cont_sun_m_813_11_alg».proof.Proof.Gen.Pre_input_domain
import proofs.«206635_g86930138071314_cont_sun_m_813_11_alg».proof.Proof.Spec
import Idealize.ShloMosaic.Lib.ReduceAll
import Idealize.ShloMosaic.Lib.ValueIdx

namespace Cert.Proof.PreOK

open Idealize.ShloMosaic Idealize.ShloMosaic.ValueIdx

/-- The scalar shape has one index. -/
instance subsingleton_scalar_idx : Subsingleton Cert.Pre_input_domain.S_.Idx :=
  ⟨fun a b => funext fun d => d.elim0⟩

/-- A 32-bit word that is, read signed, at least 0 and at most 99999 is below 100000 read unsigned. -/
theorem word_lt (a : BitVec 32)
    (h : IntOp.andi (IntOp.cmpi .sge a 0#32) (IntOp.cmpi .sle a 99999#32) = 1#1) : a.toNat < 100000 := by
  obtain ⟨hge, hle⟩ := IntOp.andi_eq_one.1 h
  have h0 : (0#32 : BitVec 32).toInt ≤ a.toInt := IntOp.cmpi_sge.1 hge
  have h1 : a.toInt ≤ (99999#32 : BitVec 32).toInt := IntOp.cmpi_sle.1 hle
  have e0 : (0#32 : BitVec 32).toInt = 0 := by decide
  have e1 : (99999#32 : BitVec 32).toInt = 99999 := by decide
  rw [e0] at h0
  rw [e1] at h1
  rw [BitVec.toInt_eq_toNat_cond] at h0 h1
  have hlt := a.isLt
  split at h0 <;> omega

/-- Under the precondition every index word names a row of the table. Stated for every float instance: the
    conjunct on the index words does not read the floats. -/
theorem inRange_of_pre {F : FTy → Type} [FloatOps F] [Cert.Pre_input_domain.Facts]
    (a0 : IVec Cert.Pre_input_domain.S16384 32) (a1 : FVec F Cert.Pre_input_domain.S100000x128 .f32)
    (h : Cert.Pre_input_domain.fn (F := F) a0 a1 = fun _ => 1#1) : Cert.Spec.InRange a0 := by
  have h0 := congrFun h ix0
  dsimp only [Cert.Pre_input_domain.fn, andi] at h0
  obtain ⟨_, h9⟩ := IntOp.andi_eq_one.1 h0
  intro e
  exact word_lt _ (Host.reduce_andi_all _ _ _ _ ix0 h9 (ix1 e))

end Cert.Proof.PreOK
-- ==== Proof.RefRun.lean ====
/-
  The reference's run, read back.

  The reference is `jnp.take(table, idx, axis=0)`: @main calls @_take, which calls @_where for the wrapped index. With
  the two functions unfolded at their calls @main is one straight line of 23 host operations over the buffers of the
  calls' records; run from any memory, every weakly fair execution ends with the result buffer at the operations'
  composed term `refTerm` of the two arguments' launch contents, and the arguments unchanged.
-/
import proofs.«206635_g86930138071314_cont_sun_m_813_11_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 23 operations, in order, the two calls unfolded: @_take's six before its call of @_where, @_where's
    select (into the buffer of @_take's `%4`), @_take's sixteen after it. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 100000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S100000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select ]

set_option maxRecDepth 1024 in
/-- @main is that straight line: the two functions' definitions unfolded at their calls, both sides are one chain
    of `hlo` steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- The wrapped index column of the operations: `idx + 100000` where `idx < 0`, `idx` elsewhere, as a column. -/
def refColumn (idx : IVec S16384 32) : IVec S16384x1 32 :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 100000#32))) idx)

/-- The operations' composed term of the two arguments: the rows gathered at the wrapped index column where the
    column lies in `[0, 99999]`, the fill elsewhere. -/
def refTerm (idx : IVec S16384 32) (tab : FVec F S100000x128 .f32) : FVec F S16384x128 .f32 :=
  select
    (broadcastInDim S16384x128 ![0] bcast_S16384_S16384x128_0
      (Host.reduce IntOp.andi
        (andi (cmpi .sge (refColumn idx) (broadcastInDim S16384x1 ![] bcast_S_S16384x1 (constantI S_ 32 0#32)))
          (cmpi .sle (refColumn idx)
            (broadcastInDim S16384x1 ![0, 1] bcast_S1x1_S16384x1_0_1 (broadcastInDim S1x1 ![1] bcast_S1_S1x1_1 (constantI S1 32 99999#32)))))
        (constantI S_ 1 1#1) reducesTo_S16384x1_S16384_d1 h_S_))
    (Host.gather gather_S100000x128_S16384x1_S16384x128_1_0_n_n_0_1_1128 tab (refColumn idx))
    (broadcastInDim S16384x128 ![] bcast_S_S16384x128 (constant S_ .f32 0x7FC00000#32))

attribute [local irreducible] Host.reduce Host.gather in
/-- The fold at the result buffer is `refTerm` of the fold's start at the two arguments. -/
theorem out_eq (V : Valuation τ sig (Elt F)) :
    after ops V (main_v0 : DevRef τ sig) = refTerm (V (main_arg0 : DevRef τ sig)) (V (main_arg1 : DevRef τ sig)) := by
  after_results
  rfl

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

/-- On every device, for any float values, from any memory with zero counters: every weakly fair execution of
    @main terminates with the result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _), (h c main_arg1).trans (arg1_eq _)⟩)
    (run_seq scopedRefs_eq scopedSems_eq defs main (fun _ => ops) main_eq (fun _ => ops_sub) m ρ)

end Cert.ReferenceIdeal.RefValue

end
-- ==== Proof.LibRowOps.lean ====
/-
  GATHER AND SCATTER OF ROWS, READ AT AN INDEX. StableHLO's `gather` and `scatter` with ONE index column — the
  lowering of `x[idx]`, `x.at[idx].add(v)` for a 2-d array `x` and of `c.at[idx].add(v)` for a 1-d array `c`, at an
  integer vector `idx` presented as an `[E, 1]` array — stated generically in the extents: a gathered element is the
  operand's at the row index read signed and CLAMPED (`rowGather_apply`); an update lands at the row index read signed
  when it is inside the operand and is DROPPED otherwise (`rowScatter_resultIdx?`, `vecScatter_resultIdx?`), so the
  accumulating scatter at an element is the operand's element plus the sum of the updates whose row index is that
  element's row (`rowScatterAdd_apply`, `vecScatterAdd_apply`). Last, the INTEGER scatter of ones into zeros with
  wrapping 32-bit addition: the left fold over the updates adds one per update landing at the element
  (`scatter_ones_fold`), so with fewer than `2 ^ 31` updates the element, read signed, is the number of updates whose
  index is that element (`vecScatter_count`).
-/
import Idealize.ShloMosaic.Lib.ValueIdx
import Idealize.ShloMosaic.PureOps.Contract

noncomputable section

open scoped BigOperators
open Idealize.ShloMosaic Idealize.ShloMosaic.ValueIdx

namespace Cert.Lib

/-! ## A start index read as a row -/

/-- The word `b` read as a signed integer, as a row of an `n`-row array when it is inside `[0, n)`; `none` when it
    is outside (a scatter drops such an update). -/
def row? (n : Nat) {w : Nat} (b : BitVec w) : Option (Fin n) :=
  if h : 0 ≤ b.toInt ∧ b.toInt < n then some ⟨b.toInt.toNat, by omega⟩ else none

/-- The word `b` read as a signed integer and clamped into `[0, n - 1]` (a gather clamps every start index). -/
def clampRow (n : Nat) (hn : 0 < n) {w : Nat} (b : BitVec w) : Fin n := ⟨min b.toInt.toNat (n - 1), by omega⟩

/-- `row?` is `some i` exactly when the word, read signed, is the natural number `i`. -/
theorem row?_eq_some_iff {n w : Nat} (b : BitVec w) (i : Fin n) : row? n b = some i ↔ b.toInt = (i.val : Int) := by
  unfold row?
  constructor
  · intro h
    split at h
    · rename_i hb
      have := congrArg Fin.val (Option.some.inj h)
      simp only at this
      omega
    · exact absurd h (by simp)
  · intro h
    have hb : 0 ≤ b.toInt ∧ b.toInt < n := by have := i.isLt; omega
    rw [dif_pos hb]
    congr 1
    exact Fin.ext (by simp only; omega)

/-- Inside the range the clamped row is the row. -/
theorem clampRow_of_row? {n w : Nat} (hn : 0 < n) (b : BitVec w) (i : Fin n) (h : row? n b = some i) :
    clampRow n hn b = i := by
  rw [row?_eq_some_iff] at h
  refine Fin.ext ?_
  show min b.toInt.toNat (n - 1) = i.val
  have := i.isLt
  omega

/-! ## Gather of rows: `x[idx]` of a 2-d array at a column of row indices -/

section Gather
variable {α : Type}

/-- The dimension numbers of `x[idx, :]`: an operand `[N, D]`, start indices `[E, 1]` (one row index per result
    row), a result `[E, D]`; the row axis is collapsed, the column axis is the one offset axis, slices are `1 × D`. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, k)`: the operand's row `idx[e, 0]` — read signed and clamped into `[0, N - 1]` — at
    column `k`. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGather N E D wf) x idx (ix2 e k) = x (ix2 (clampRow N hN (idx (ix2 e 0))) k) := by
  unfold Host.gather
  congr 1
  funext a
  refine Fin.ext ?_
  match a with
  | ⟨0, _⟩ =>
    show (rowGather N E D wf).start (ix2 e k) idx 0 + (rowGather N E D wf).batchCoord (ix2 e k) 0
      + (rowGather N E D wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e k) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e k) idx 1 + (rowGather N E D wf).batchCoord (ix2 e k) 1
      + (rowGather N E D wf).offCoord (ix2 e k) 1 = k.val
    rw [GatherDims.batchCoord_eq_zero _ _ _ List.not_mem_nil]
    have hs : (rowGather N E D wf).start (ix2 e k) idx 1 = 0 := by
      unfold GatherDims.start
      rw [dif_neg (show (1 : Fin 2) ∉ (rowGather N E D wf).startIndexMap from (by decide : (1 : Fin 2) ∉ ([0] : List (Fin 2))))]
    have ho : (rowGather N E D wf).offCoord (ix2 e k) 1 = k.val := by
      unfold GatherDims.offCoord
      rw [dif_pos (show (1 : Fin 2) ∈ (rowGather N E D wf).sKept from
        (GatherDims.mem_sKept _ _).2 ⟨(by decide : (1 : Fin 2) ∉ ([0] : List (Fin 2))), List.not_mem_nil⟩)]
      rfl
    rw [hs, ho]; omega

end Gather

/-! ## Scatter of rows: `x.at[idx].add(upd)` of a 2-d array at a column of row indices -/

section Scatter

/-- The dimension numbers of `x.at[idx, :].add(upd)`: an operand `[N, D]`, scatter indices `[E, 1]` (one row index
    per update row), updates `[E, D]`; the operand's row axis is inserted, the updates' column axis is the one window
    axis. -/
abbrev rowScatter (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)

/-- On the row axis the window of update `(e, k)` starts at the scatter index `idx[e, 0]`, read signed. -/
theorem rowScatter_start_zero (idx : IVec ⟨2, ![E, 1]⟩ w) (e : Fin E) (k : Fin D) :
    (rowScatter N E D wf).start (ix2 e k) idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e k) ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at `0`: the scatter indices do not name that axis. -/
theorem rowScatter_start_one (idx : IVec ⟨2, ![E, 1]⟩ w) (j : (⟨2, ![E, D]⟩ : Shape).Idx) :
    (rowScatter N E D wf).start j idx 1 = 0 := by
  unfold ScatterDims.start
  rw [dif_neg (show (1 : Fin 2) ∉ (rowScatter N E D wf).scatterDimsToOperandDims from (by decide : (1 : Fin 2) ∉ ([0] : List (Fin 2))))]

/-- The row axis is inserted: no window coordinate there. -/
theorem rowScatter_window_zero (j : (⟨2, ![E, D]⟩ : Shape).Idx) : (rowScatter N E D wf).window j 0 = 0 := by
  unfold ScatterDims.window
  rw [dif_neg (show (0 : Fin 2) ∉ (rowScatter N E D wf).sKept from
    (by decide : (0 : Fin 2) ∉ (List.finRange 2).filter (· ∉ ([0] : List (Fin 2)))))]

/-- On the column axis the window coordinate is the update's column. -/
theorem rowScatter_window_one (e : Fin E) (k : Fin D) : (rowScatter N E D wf).window (ix2 e k) 1 = k.val := by
  unfold ScatterDims.window
  rw [dif_pos (show (1 : Fin 2) ∈ (rowScatter N E D wf).sKept from
    (by decide : (1 : Fin 2) ∈ (List.finRange 2).filter (· ∉ ([0] : List (Fin 2)))))]
  rfl

/-- WHERE UPDATE `(e, k)` LANDS: at row `idx[e, 0]` (read signed) and column `k` when that row is inside the operand,
    nowhere when it is not. -/
theorem rowScatter_resultIdx? (idx : IVec ⟨2, ![E, 1]⟩ w) (e : Fin E) (k : Fin D) :
    (rowScatter N E D wf).resultIdx? (ix2 e k) idx = (row? N (idx (ix2 e 0))).map (fun i => ix2 i k) := by
  have h0 := rowScatter_start_zero wf idx e k
  have h1 := rowScatter_start_one wf idx (ix2 e k)
  have w0 := rowScatter_window_zero wf (ix2 e k)
  have w1 := rowScatter_window_one wf e k
  unfold ScatterDims.resultIdx? row?
  by_cases h : 0 ≤ (idx (ix2 e 0)).toInt ∧ (idx (ix2 e 0)).toInt < (N : Int)
  · have hall : ∀ a : Fin 2, 0 ≤ (rowScatter N E D wf).start (ix2 e k) idx a + (rowScatter N E D wf).window (ix2 e k) a ∧
        (rowScatter N E D wf).start (ix2 e k) idx a + (rowScatter N E D wf).window (ix2 e k) a
          < ((⟨2, ![N, D]⟩ : Shape).size a : Int) := by
      intro a
      match a with
      | ⟨0, _⟩ =>
        show 0 ≤ (rowScatter N E D wf).start (ix2 e k) idx 0 + ((rowScatter N E D wf).window (ix2 e k) 0 : Nat) ∧
          (rowScatter N E D wf).start (ix2 e k) idx 0 + ((rowScatter N E D wf).window (ix2 e k) 0 : Nat) < (N : Int)
        rw [h0, w0]; simpa using h
      | ⟨1, _⟩ =>
        show 0 ≤ (rowScatter N E D wf).start (ix2 e k) idx 1 + ((rowScatter N E D wf).window (ix2 e k) 1 : Nat) ∧
          (rowScatter N E D wf).start (ix2 e k) idx 1 + ((rowScatter N E D wf).window (ix2 e k) 1 : Nat) < (D : Int)
        rw [h1, w1]; have := k.isLt; omega
    rw [dif_pos hall, dif_pos h]
    simp only [Option.map_some]
    congr 1
    funext a
    refine Fin.ext ?_
    match a with
    | ⟨0, _⟩ =>
      show ((rowScatter N E D wf).start (ix2 e k) idx 0 + ((rowScatter N E D wf).window (ix2 e k) 0 : Nat)).toNat
        = (idx (ix2 e 0)).toInt.toNat
      rw [h0, w0]; simp
    | ⟨1, _⟩ =>
      show ((rowScatter N E D wf).start (ix2 e k) idx 1 + ((rowScatter N E D wf).window (ix2 e k) 1 : Nat)).toNat = k.val
      rw [h1, w1]; simp
  · have hall : ¬ ∀ a : Fin 2, 0 ≤ (rowScatter N E D wf).start (ix2 e k) idx a + (rowScatter N E D wf).window (ix2 e k) a ∧
        (rowScatter N E D wf).start (ix2 e k) idx a + (rowScatter N E D wf).window (ix2 e k) a
          < ((⟨2, ![N, D]⟩ : Shape).size a : Int) := by
      intro hall
      apply h
      have := hall 0
      rw [h0, w0] at this
      simpa using this
    rw [dif_neg hall, dif_neg h]
    rfl

/-- Two rank-2 indices built from coordinates are equal exactly when the coordinates are. -/
theorem ix2_inj {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- Update `(e, k')` lands at `(i, k)` exactly when its row index is `i` and its column is `k`. -/
theorem rowScatter_resultIdx?_eq_some_iff (idx : IVec ⟨2, ![E, 1]⟩ w) (e : Fin E) (k' : Fin D) (i : Fin N) (k : Fin D) :
    (rowScatter N E D wf).resultIdx? (ix2 e k') idx = some (ix2 i k) ↔ row? N (idx (ix2 e 0)) = some i ∧ k' = k := by
  rw [rowScatter_resultIdx?]
  cases hr : row? N (idx (ix2 e 0)) with
  | none => simp
  | some i' => simp [ix2_inj]

end Scatter

/-! ## The accumulating float scatter of rows, read at an element -/

section ScatterAdd
variable {N E D w : Nat} {φ : FTy}

/-- THE ROW SCATTER-ADD READ AT `(i, k)`: the operand's element plus the sum, over the update rows `e` whose row index
    `idx[e, 0]` is `i`, of the update's element `(e, k)`. -/
theorem rowScatterAdd_apply (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ) (i : Fin N) (k : Fin D) :
    Host.scatterAdd (rowScatter N E D wf) x idx upd (ix2 i k)
      = x (ix2 i k) + ∑ e ∈ Finset.univ.filter (fun e : Fin E => row? N (idx (ix2 e 0)) = some i), upd (ix2 e k) := by
  show x (ix2 i k) + ∑ j ∈ Finset.univ.filter (fun j => (rowScatter N E D wf).resultIdx? j idx = some (ix2 i k)), upd j = _
  congr 1
  rw [Finset.sum_filter, sum_idx2, Finset.sum_filter]
  refine Finset.sum_congr rfl fun e _ => ?_
  simp only [rowScatter_resultIdx?_eq_some_iff]
  by_cases hr : row? N (idx (ix2 e 0)) = some i
  · simp [hr]
  · simp [hr]

end ScatterAdd

/-! ## Scatter into a vector: `x.at[idx].add(upd)` of a 1-d array at a column of indices -/

section VecScatter

/-- A rank-1 index set is its one coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- Two rank-1 indices built from a coordinate are equal exactly when the coordinates are. -/
theorem ix1_inj {n : Nat} (a a' : Fin n) : ix1 a = ix1 a' ↔ a = a' :=
  ⟨fun h => congrFun h 0, fun h => h ▸ rfl⟩

/-- The dimension numbers of `x.at[idx].add(upd)`: an operand `[N]`, scatter indices `[E, 1]` (one index per update),
    updates `[E]`; the operand's one axis is inserted, the updates have no window axis. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- Update `e`'s window starts at the scatter index `idx[e, 0]`, read signed. -/
theorem vecScatter_start (idx : IVec ⟨2, ![E, 1]⟩ w) (e : Fin E) :
    (vecScatter N E wf).start (ix1 e) idx 0 = (idx (ix2 e 0)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: no window coordinate. -/
theorem vecScatter_window (j : (⟨1, ![E]⟩ : Shape).Idx) : (vecScatter N E wf).window j 0 = 0 := by
  unfold ScatterDims.window
  rw [dif_neg (show (0 : Fin 1) ∉ (vecScatter N E wf).sKept from
    (by decide : (0 : Fin 1) ∉ (List.finRange 1).filter (· ∉ ([0] : List (Fin 1)))))]

/-- WHERE UPDATE `e` LANDS: at `idx[e, 0]` (read signed) when that is inside the operand, nowhere when it is not. -/
theorem vecScatter_resultIdx? (idx : IVec ⟨2, ![E, 1]⟩ w) (e : Fin E) :
    (vecScatter N E wf).resultIdx? (ix1 e) idx = (row? N (idx (ix2 e 0))).map ix1 := by
  have h0 := vecScatter_start wf idx e
  have w0 := vecScatter_window wf (ix1 e)
  unfold ScatterDims.resultIdx? row?
  by_cases h : 0 ≤ (idx (ix2 e 0)).toInt ∧ (idx (ix2 e 0)).toInt < (N : Int)
  · have hall : ∀ a : Fin 1, 0 ≤ (vecScatter N E wf).start (ix1 e) idx a + (vecScatter N E wf).window (ix1 e) a ∧
        (vecScatter N E wf).start (ix1 e) idx a + (vecScatter N E wf).window (ix1 e) a
          < ((⟨1, ![N]⟩ : Shape).size a : Int) := by
      intro a
      match a with
      | ⟨0, _⟩ =>
        show 0 ≤ (vecScatter N E wf).start (ix1 e) idx 0 + ((vecScatter N E wf).window (ix1 e) 0 : Nat) ∧
          (vecScatter N E wf).start (ix1 e) idx 0 + ((vecScatter N E wf).window (ix1 e) 0 : Nat) < (N : Int)
        rw [h0, w0]; simpa using h
    rw [dif_pos hall, dif_pos h]
    simp only [Option.map_some]
    congr 1
    funext a
    refine Fin.ext ?_
    match a with
    | ⟨0, _⟩ =>
      show ((vecScatter N E wf).start (ix1 e) idx 0 + ((vecScatter N E wf).window (ix1 e) 0 : Nat)).toNat
        = (idx (ix2 e 0)).toInt.toNat
      rw [h0, w0]; simp
  · have hall : ¬ ∀ a : Fin 1, 0 ≤ (vecScatter N E wf).start (ix1 e) idx a + (vecScatter N E wf).window (ix1 e) a ∧
        (vecScatter N E wf).start (ix1 e) idx a + (vecScatter N E wf).window (ix1 e) a
          < ((⟨1, ![N]⟩ : Shape).size a : Int) := by
      intro hall
      apply h
      have := hall 0
      rw [h0, w0] at this
      simpa using this
    rw [dif_neg hall, dif_neg h]
    rfl

/-- Update `e` lands at `i` exactly when its index is `i`. -/
theorem vecScatter_resultIdx?_eq_some_iff (idx : IVec ⟨2, ![E, 1]⟩ w) (e : Fin E) (i : Fin N) :
    (vecScatter N E wf).resultIdx? (ix1 e) idx = some (ix1 i) ↔ row? N (idx (ix2 e 0)) = some i := by
  rw [vecScatter_resultIdx?]
  cases hr : row? N (idx (ix2 e 0)) with
  | none => simp
  | some i' => simp [ix1_inj]

/-- THE VECTOR SCATTER-ADD READ AT `i`: the operand's element plus the sum of the updates `e` whose index `idx[e, 0]`
    is `i`. -/
theorem vecScatterAdd_apply {φ : FTy} (x : FVec Ideal ⟨1, ![N]⟩ φ) (idx : IVec ⟨2, ![E, 1]⟩ w)
    (upd : FVec Ideal ⟨1, ![E]⟩ φ) (i : Fin N) :
    Host.scatterAdd (F := Ideal) (vecScatter N E wf) x idx upd (ix1 i)
      = x (ix1 i) + ∑ e ∈ Finset.univ.filter (fun e : Fin E => row? N (idx (ix2 e 0)) = some i), upd (ix1 e) := by
  show x (ix1 i) + ∑ j ∈ Finset.univ.filter (fun j => (vecScatter N E wf).resultIdx? j idx = some (ix1 i)), upd j = _
  congr 1
  rw [Finset.sum_filter, sum_idx1, Finset.sum_filter]
  refine Finset.sum_congr rfl fun e _ => ?_
  simp only [vecScatter_resultIdx?_eq_some_iff]

end VecScatter

/-! ## The integer scatter of ones: a count -/

section Count

/-- How many positions of `0, …, n - 1` satisfy `p`, counted along the list of them, is the size of the set of them. -/
theorem countP_finRange {n : Nat} (p : Fin n → Prop) [DecidablePred p] :
    (List.finRange n).countP (fun k => decide (p k)) = (Finset.univ.filter p).card := by
  rw [List.countP_eq_length_filter, ← List.toFinset_card_of_nodup ((List.nodup_finRange n).filter _),
    List.toFinset_filter, List.toFinset_finRange]
  congr 1
  ext k
  simp

/-- THE FOLD OF AN INTEGER SCATTER OF ONES over any list of update positions: at operand element `i` it has added, to
    what was there, the number of listed updates that land at `i` (modulo `2 ^ 32`). An update landing elsewhere, or
    nowhere, leaves element `i` as it was. -/
theorem scatter_ones_fold {s si u : Shape} {w : Nat} (d : ScatterDims s si u) (idx : IVec si w)
    (upd : u.Idx → BitVec 32) (hupd : ∀ j, upd j = 1#32) (i : s.Idx) (l : List (Fin u.numel)) (acc : s.Idx → BitVec 32) :
    (l.foldl (fun r n =>
        match d.resultIdx? (u.rowMajor.symm n) idx with
        | some i0 => fun i' => if i' = i0 then IntOp.addi (r i0) (upd (u.rowMajor.symm n)) else r i'
        | none => r) acc) i
      = acc i + BitVec.ofNat 32 (l.countP fun n => decide (d.resultIdx? (u.rowMajor.symm n) idx = some i)) := by
  induction l generalizing acc with
  | nil => simp
  | cons n l ih =>
    rw [List.foldl_cons, ih, List.countP_cons]
    cases hr : d.resultIdx? (u.rowMajor.symm n) idx with
    | none => simp
    | some i0 =>
      by_cases hi : i = i0
      · subst hi
        simp only [if_true, decide_true, IntOp.addi, hupd]
        rw [BitVec.ofNat_add, BitVec.add_assoc]
        congr 1
        rw [BitVec.add_comm]
      · have hne : ¬ (some i0 = some i) := fun h => hi (Option.some.inj h).symm
        simp [hi, hne]

end Count

section VecCount
variable {N E : Nat}

/-- THE INTEGER COUNT: scattering a `1` for every update into a vector of zeros with 32-bit wrapping addition leaves at
    element `i`, read signed, the number of updates `e` whose index `idx[e, 0]` is `i` — there are fewer than `2 ^ 31`
    updates, so the sum never wraps. -/
theorem vecScatter_count (hE : E < 2 ^ 31) (wf : ScatterDims.WF ⟨1, ![N]⟩ ⟨2, ![E, 1]⟩ ⟨1, ![E]⟩ [] [0] [0] 1)
    (idx : IVec ⟨2, ![E, 1]⟩ 32) (i : Fin N) :
    (Host.scatter (vecScatter N E wf) IntOp.addi (fun _ => (0#32 : BitVec 32)) idx (fun _ => (1#32 : BitVec 32)) (ix1 i)).toInt
      = ((Finset.univ.filter (fun e : Fin E => row? N (idx (ix2 e 0)) = some i)).card : Int) := by
  refine (congrArg BitVec.toInt (scatter_ones_fold (vecScatter N E wf) idx (fun _ => 1#32) (fun _ => rfl) (ix1 i)
    (List.finRange (⟨1, ![E]⟩ : Shape).numel) (fun _ => 0#32))).trans ?_
  rw [countP_finRange (fun n => (vecScatter N E wf).resultIdx? ((⟨1, ![E]⟩ : Shape).rowMajor.symm n) idx = some (ix1 i))]
  have hcard : (Finset.univ.filter (fun n : Fin (⟨1, ![E]⟩ : Shape).numel =>
        (vecScatter N E wf).resultIdx? ((⟨1, ![E]⟩ : Shape).rowMajor.symm n) idx = some (ix1 i))).card
      = (Finset.univ.filter (fun e : Fin E => row? N (idx (ix2 e 0)) = some i)).card := by
    refine Finset.card_equiv ((⟨1, ![E]⟩ : Shape).rowMajor.symm.trans idxEquiv1) fun n => ?_
    simp only [Finset.mem_filter, Finset.mem_univ, true_and, Equiv.trans_apply]
    generalize (⟨1, ![E]⟩ : Shape).rowMajor.symm n = j
    obtain ⟨e, rfl⟩ : ∃ e : Fin E, j = ix1 e := ⟨j 0, eq_ix1 j⟩
    rw [vecScatter_resultIdx?_eq_some_iff]
    rfl
  rw [hcard]
  have hle : (Finset.univ.filter (fun e : Fin E => row? N (idx (ix2 e 0)) = some i)).card ≤ E := by
    simpa using Finset.card_le_univ (Finset.univ.filter (fun e : Fin E => row? N (idx (ix2 e 0)) = some i))
  generalize (Finset.univ.filter (fun e : Fin E => row? N (idx (ix2 e 0)) = some i)).card = c at hle ⊢
  rw [BitVec.zero_add, BitVec.toInt_eq_toNat_cond, BitVec.toNat_ofNat]
  have hc : c % 2 ^ 32 = c := Nat.mod_eq_of_lt (by omega)
  rw [hc, if_pos (by omega)]

end VecCount

end Cert.Lib

end
-- ==== Proof.LibTake.lean ====
/-
  Rows taken by index, with the out-of-range fill, when every index is in range.

  `jnp.take(x, v, axis=0)` over an array of 100000 rows is printed as: the index wrapped (`v + 100000` where `v < 0`),
  made a column; the test `0 ≤ index ≤ 99999`, and-reduced over the column's unit axis; the rows gathered at the
  column (a gather clamps); and a select that keeps the gathered row where the test holds and a fill row elsewhere.
  When every `v e`, read signed, lies in `[-100000, 100000)` the wrapped index lies in `[0, 99999]`, the test holds at
  every row, and the result at `(e, q)` is `x` at the wrapped row and column `q`: the fill is never read.
-/
import Idealize.ShloMosaic.Lib.ReduceAll
import Idealize.ShloMosaic.Lib.Pipeline.Value
import Idealize.ShloMosaic.Lib.ValueIdx
import Idealize.ShloMosaic.Lib.Affine
import proofs.«206635_g86930138071314_cont_sun_m_813_11_alg».proof.Proof.LibRowOps

noncomputable section

namespace Cert.Lib

open Idealize.ShloMosaic Idealize.ShloMosaic.ValueIdx

/-- A left fold by `and` that starts at 1 and meets only 1s ends at 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    refine foldl_andi_ones f l _ ?_ (fun n hn => hl n (List.mem_cons.2 (Or.inr hn)))
    show IntOp.andi init (f a) = 1#1
    rw [h, hl a (List.mem_cons.2 (Or.inl rfl))]
    decide

/-- An and-reduction of an array of 1s, started from 1, is 1 at every result index. -/
theorem reduce_andi_of_all {s t u : Shape} {axes : List (Fin s.rank)} (x : s.Idx → BitVec 1) (init : u.Idx → BitVec 1)
    (h : s.ReducesTo axes t) (hu : 0 < u.numel) (j : t.Idx) (hinit : ∀ i, init i = 1#1) (hx : ∀ i, x i = 1#1) :
    Host.reduce IntOp.andi x init h hu j = 1#1 := by
  rw [Host.reduce_eq_foldl]
  exact foldl_andi_ones x _ _ (hinit _) (fun n _ => hx n)

/-- The wrapped index: `b + 100000` where `b` is negative, `b` itself elsewhere. -/
def wrapRow (b : BitVec 32) : BitVec 32 := Scalar.select (IntOp.cmpi .slt b 0#32) (IntOp.addi b 100000#32) b

/-- A word in `[-100000, 100000)` wraps into `[0, 99999]`: both tests of the range come out 1. -/
theorem wrapRow_inRange (b : BitVec 32) (h1 : -100000 ≤ b.toInt) (h2 : b.toInt < 100000) :
    IntOp.cmpi .sge (wrapRow b) 0#32 = 1#1 ∧ IntOp.cmpi .sle (wrapRow b) 99999#32 = 1#1 := by
  have h0 : (0#32 : BitVec 32).toInt = 0 := by decide
  have h9 : (99999#32 : BitVec 32).toInt = 99999 := by decide
  have key : 0 ≤ (wrapRow b).toInt ∧ (wrapRow b).toInt ≤ 99999 := by
    unfold wrapRow Scalar.select
    by_cases hneg : b.toInt < 0
    · have hlt : IntOp.cmpi .slt b 0#32 = 1#1 := IntOp.cmpi_slt.2 (by rw [h0]; exact hneg)
      have hlt' : IntOp.cmpi .slt b 0#32 = (1 : BitVec 1) := hlt
      rw [if_pos hlt']
      have hs : (IntOp.addi b 100000#32).toInt = b.toInt + 100000 := by
        show (b + 100000#32).toInt = _
        rw [BitVec.toInt_add]
        have : (100000#32 : BitVec 32).toInt = 100000 := by decide
        rw [this, Int.bmod_def]
        norm_num
        omega
      rw [hs]
      omega
    · have hlt : ¬ IntOp.cmpi .slt b 0#32 = 1#1 := fun hh => hneg (by have := IntOp.cmpi_slt.1 hh; rwa [h0] at this)
      have hlt' : ¬ IntOp.cmpi .slt b 0#32 = (1 : BitVec 1) := hlt
      rw [if_neg hlt']
      omega
  exact ⟨IntOp.cmpi_sge.2 (by rw [h0]; exact key.1), IntOp.cmpi_sle.2 (by rw [h9]; exact key.2)⟩

section Take
variable {E D : ℕ} {α : Type}

/-- The index column: the wrapped indices, one per row. -/
theorem wrapped_column_apply (v z n : IVec ⟨1, ![E]⟩ 32) (hz : ∀ j, z j = 0#32) (hn : ∀ j, n j = 100000#32)
    (hb1 : (⟨1, ![E]⟩ : Shape).BroadcastsInDim ⟨2, ![E, 1]⟩ (![0] : Fin 1 → Fin 2)) (e : Fin E) (u : Fin 1) :
    broadcastInDim ⟨2, ![E, 1]⟩ ![0] hb1 (select (cmpi .slt v z) (addi v n) v) (ix2 e u) = wrapRow (v (ix1 e)) := by
  refine (broadcastInDim_apply _ hb1 _ (ix2 e u) (ix1 e) fun ax => ?_).trans ?_
  · match ax with
    | ⟨0, _⟩ =>
      show e.val = if E = 1 then 0 else e.val
      split
      · have := e.isLt; omega
      · rfl
  · show Scalar.select (IntOp.cmpi .slt (v (ix1 e)) (z (ix1 e))) (IntOp.addi (v (ix1 e)) (n (ix1 e))) (v (ix1 e)) = _
    rw [hz, hn]
    rfl

/-- THE ROWS TAKEN, READ AT `(e, q)`: with every index in `[-100000, 100000)`, the operand at the wrapped row. -/
theorem take_apply (x : (⟨2, ![100000, D]⟩ : Shape).Idx → α) (fill : (⟨2, ![E, D]⟩ : Shape).Idx → α)
    (v z n : IVec ⟨1, ![E]⟩ 32) (hz : ∀ j, z j = 0#32) (hn : ∀ j, n j = 100000#32)
    (hb1 : (⟨1, ![E]⟩ : Shape).BroadcastsInDim ⟨2, ![E, 1]⟩ (![0] : Fin 1 → Fin 2))
    (z2 m2 : IVec ⟨2, ![E, 1]⟩ 32) (hz2 : ∀ j, z2 j = 0#32) (hm2 : ∀ j, m2 j = 99999#32)
    (one : IVec ⟨0, ![]⟩ 1) (hone : ∀ j, one j = 1#1)
    (hr : (⟨2, ![E, 1]⟩ : Shape).ReducesTo [1] ⟨1, ![E]⟩) (hu : 0 < (⟨0, ![]⟩ : Shape).numel)
    (hb5 : (⟨1, ![E]⟩ : Shape).BroadcastsInDim ⟨2, ![E, D]⟩ (![0] : Fin 1 → Fin 2))
    (wf : GatherDims.WF ⟨2, ![100000, D]⟩ ⟨2, ![E, 1]⟩ ⟨2, ![E, D]⟩ [1] [0] [] [0] [] 1 ![1, D])
    (hv : ∀ e : Fin E, -100000 ≤ (v (ix1 e)).toInt ∧ (v (ix1 e)).toInt < 100000) (e : Fin E) (q : Fin D) :
    select (broadcastInDim ⟨2, ![E, D]⟩ ![0] hb5
        (Host.reduce IntOp.andi
          (andi (cmpi .sge (broadcastInDim ⟨2, ![E, 1]⟩ ![0] hb1 (select (cmpi .slt v z) (addi v n) v)) z2)
            (cmpi .sle (broadcastInDim ⟨2, ![E, 1]⟩ ![0] hb1 (select (cmpi .slt v z) (addi v n) v)) m2)) one hr hu))
      (Host.gather (rowGather 100000 E D wf) x (broadcastInDim ⟨2, ![E, 1]⟩ ![0] hb1 (select (cmpi .slt v z) (addi v n) v)))
      fill (ix2 e q)
      = x (ix2 (clampRow 100000 (by norm_num) (wrapRow (v (ix1 e)))) q) := by
  have hmask : broadcastInDim ⟨2, ![E, D]⟩ ![0] hb5
      (Host.reduce IntOp.andi
        (andi (cmpi .sge (broadcastInDim ⟨2, ![E, 1]⟩ ![0] hb1 (select (cmpi .slt v z) (addi v n) v)) z2)
          (cmpi .sle (broadcastInDim ⟨2, ![E, 1]⟩ ![0] hb1 (select (cmpi .slt v z) (addi v n) v)) m2)) one hr hu) (ix2 e q)
      = 1#1 := by
    refine (broadcastInDim_apply _ hb5 _ (ix2 e q) (ix1 e) fun ax => ?_).trans ?_
    · match ax with
      | ⟨0, _⟩ =>
        show e.val = if E = 1 then 0 else e.val
        split
        · have := e.isLt; omega
        · rfl
    · refine reduce_andi_of_all _ _ hr hu (ix1 e) hone fun i => ?_
      obtain ⟨e', u, rfl⟩ : ∃ (e' : Fin E) (u : Fin 1), i = ix2 e' u := ⟨i 0, i 1, eq_ix2 i⟩
      show IntOp.andi
          (IntOp.cmpi .sge (broadcastInDim ⟨2, ![E, 1]⟩ ![0] hb1 (select (cmpi .slt v z) (addi v n) v) (ix2 e' u)) (z2 (ix2 e' u)))
          (IntOp.cmpi .sle (broadcastInDim ⟨2, ![E, 1]⟩ ![0] hb1 (select (cmpi .slt v z) (addi v n) v) (ix2 e' u)) (m2 (ix2 e' u)))
        = 1#1
      rw [wrapped_column_apply v z n hz hn hb1 e' u, hz2, hm2]
      obtain ⟨ha, hb⟩ := wrapRow_inRange (v (ix1 e')) (hv e').1 (hv e').2
      rw [ha, hb]
      decide
  rw [select_apply, hmask]
  show Host.gather (rowGather 100000 E D wf) x _ (ix2 e q) = _
  rw [rowGather_apply (by norm_num : 0 < 100000) wf x _ e q, wrapped_column_apply v z n hz hn hb1 e (0 : Fin 1)]

end Take

end Cert.Lib

end
-- ==== Proof.RefValue.lean ====
/-
  The reference's value: the rows looked up.

  On index words that all name a row of the table the wrapped index is the word itself, the range test holds at
  every row, and the gather's clamp is never met: the operations' composed term of the run is the table's row at
  each index word, `Cert.Spec.lookup`.
-/
import proofs.«206635_g86930138071314_cont_sun_m_813_11_alg».proof.Proof.RefRun
import proofs.«206635_g86930138071314_cont_sun_m_813_11_alg».proof.Proof.LibTake
import proofs.«206635_g86930138071314_cont_sun_m_813_11_alg».proof.Proof.Spec
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- The program's gather record is the row gather's. -/
theorem gather_eq :
    gather_S100000x128_S16384x1_S16384x128_1_0_n_n_0_1_1128
      = Cert.Lib.rowGather 100000 16384 128 gather_S100000x128_S16384x1_S16384x128_1_0_n_n_0_1_1128_wf := rfl

/-- A word below 100000 read unsigned is its own value read signed. -/
theorem toInt_of_lt (b : BitVec 32) (h : b.toNat < 100000) : b.toInt = (b.toNat : Int) := by
  rw [BitVec.toInt_eq_toNat_cond]
  split <;> omega

/-- A word that names a row is not wrapped, and the gather's clamp of it is the row it names. -/
theorem clamp_wrap_eq (b : BitVec 32) (h : b.toNat < 100000) :
    Cert.Lib.clampRow 100000 (by norm_num) (Cert.Lib.wrapRow b) = Cert.Spec.rowOfWord b := by
  have hi := toInt_of_lt b h
  have h0 : (0#32 : BitVec 32).toInt = 0 := by decide
  have hlt : ¬ IntOp.cmpi .slt b 0#32 = (1 : BitVec 1) := fun hh => by
    have := IntOp.cmpi_slt.1 hh
    rw [h0, hi] at this
    omega
  have hw : Cert.Lib.wrapRow b = b := by
    unfold Cert.Lib.wrapRow Scalar.select
    rw [if_neg hlt]
  rw [hw]
  apply Fin.ext
  show min b.toInt.toNat (100000 - 1) = min b.toNat 99999
  rw [hi, Int.toNat_natCast]

/-- THE VALUE: on index words that all name a row, the run's composed term is the rows looked up. -/
theorem refTerm_lookup (idx : IVec S16384 32) (tab : FVec F S100000x128 .f32) (h : Cert.Spec.InRange idx) :
    refTerm idx tab = Cert.Spec.lookup idx tab := by
  funext j
  obtain ⟨e, q, rfl⟩ : ∃ (e : Fin 16384) (q : Fin 128), j = ix2 e q := ⟨j 0, j 1, eq_ix2 j⟩
  rw [Cert.Spec.lookup_apply]
  unfold refTerm refColumn
  rw [gather_eq]
  have hv : ∀ e : Fin 16384, -100000 ≤ (idx (ix1 e)).toInt ∧ (idx (ix1 e)).toInt < 100000 := fun e => by
    have := toInt_of_lt _ (h e)
    have := h e
    omega
  refine (Cert.Lib.take_apply (E := 16384) (D := 128) tab _ idx _ _ (fun _ => rfl) (fun _ => rfl) bcast_S16384_S16384x1_0
    _ _ (fun _ => rfl) (fun _ => rfl) _ (fun _ => rfl) reducesTo_S16384x1_S16384_d1 h_S_ bcast_S16384_S16384x128_0
    gather_S100000x128_S16384x1_S16384x128_1_0_n_n_0_1_1128_wf hv e q).trans ?_
  rw [clamp_wrap_eq _ (h e)]

/-- The reference's run on index words that all name a row: the result is the rows looked up, the arguments are
    unchanged. -/
theorem run_lookup (m : (ℓ : Loc nD τ sig) → Buf (Elt Ideal) ℓ) (ρ : Dev nD → PrngReg)
    (hin : ∀ c : Dev nD, Cert.Spec.InRange (m ((c.tc : Thread nD τ).loc main_arg0))) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v0)
          = Cert.Spec.lookup (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)) :=
  (θ_run _ _ _).mono (fun _ hr c => ⟨(hr c).1.trans (refTerm_lookup _ _ (hin c)), (hr c).2⟩) (run (F := Ideal) m ρ)

end Cert.ReferenceIdeal.RefValue

end
-- ==== Proof.lean ====
/-
  The certificate of an embedding lookup on the SparseCores against `jnp.take`.

  Both programs compute, from an index vector of 16384 words and a table of 100000 rows of 128 numbers, the array whose
  row `e` is the table's row named by word `e` (`Cert.Spec.lookup`). The kernel cuts the work into thirty-two tasks, each
  copying 512 index words, gathering the 512 rows they name and copying them onto its band of the result; the reference
  wraps negative words, tests the range, gathers with clamping and selects against a fill. On the inputs the claims
  speak of every word lies in `[0, 99999]` (the precondition), where wrapping, clamping and the fill do nothing. No
  arithmetic on the table's numbers happens on either side, so nothing is asked of them.

  The frames of the two kernel programs are their runs (the launch theorem over the tasks' runs) with the result
  forgotten; the reference's frame is its run likewise; the idealization rewrote nothing; and at the ideal instance the
  two runs end at one function of arguments that agree.
-/
import proofs.«206635_g86930138071314_cont_sun_m_813_11_alg».proof.Defs
import proofs.«206635_g86930138071314_cont_sun_m_813_11_alg».proof.Proof.Gen.Kernel
import proofs.«206635_g86930138071314_cont_sun_m_813_11_alg».proof.Proof.Gen.Kernel.Skeleton
import proofs.«206635_g86930138071314_cont_sun_m_813_11_alg».proof.Proof.Gen.KernelIdeal
import proofs.«206635_g86930138071314_cont_sun_m_813_11_alg».proof.Proof.Gen.KernelIdeal.Skeleton
import proofs.«206635_g86930138071314_cont_sun_m_813_11_alg».proof.Proof.Gen.ReferenceIdeal
import proofs.«206635_g86930138071314_cont_sun_m_813_11_alg».proof.Proof.Gen.Pre_input_domain
import proofs.«206635_g86930138071314_cont_sun_m_813_11_alg».proof.Proof.KILaunch
import proofs.«206635_g86930138071314_cont_sun_m_813_11_alg».proof.Proof.KBLaunch
import proofs.«206635_g86930138071314_cont_sun_m_813_11_alg».proof.Proof.PreOK
import proofs.«206635_g86930138071314_cont_sun_m_813_11_alg».proof.Proof.RefValue
import Idealize.ShloMosaic.Adequacy
import Idealize.ShloMosaic.Init

noncomputable section

namespace Cert.Proof

open Idealize.ShloMosaic Idealize.SL.Sem

/-- Under the precondition every index word names a row of the table: at the word-level program, -/
theorem ok_k (m : (ℓ : Loc Cert.Kernel.nD Cert.Kernel.τ Cert.Kernel.sig) → Buf (Elt Bits) ℓ) (h : Cert.Pre_Kernel m) :
    Cert.Proof.KB.PreOK (F := Bits) m := fun d => Cert.Proof.PreOK.inRange_of_pre _ _ (h d)
/-- and at the idealized one. -/
theorem ok_ki (m : (ℓ : Loc Cert.KernelIdeal.nD Cert.KernelIdeal.τ Cert.KernelIdeal.sig) → Buf (Elt Ideal) ℓ) (h : Cert.Pre_KernelIdeal m) :
    Cert.Proof.KI.PreOK (F := Ideal) m := fun d => Cert.Proof.PreOK.inRange_of_pre _ _ (h d)

theorem frame_k : Cert.frame_Kernel := fun m ρ hpre =>
  (θ_run Cert.Kernel.defs _ _).mono (fun _ h c => (h c).2) (Cert.Proof.KB.run_main (F := Bits) m ρ (ok_k m hpre))

theorem frame_ki : Cert.frame_KernelIdeal := fun m ρ hpre =>
  (θ_run Cert.KernelIdeal.defs _ _).mono (fun _ h c => (h c).2) (Cert.Proof.KI.run_main (F := Ideal) m ρ (ok_ki m hpre))

theorem frame_ri : Cert.frame_ReferenceIdeal := fun m ρ _ =>
  (θ_run Cert.ReferenceIdeal.defs _ _).mono (fun _ h c => (h c).2) (Cert.ReferenceIdeal.RefValue.run (F := Ideal) m ρ)

/-- The idealization rewrote no operation: there is nothing to preserve. -/
theorem preserves : Cert.preserves_Kernel_KernelIdeal := trivial

/-- At the ideal instance the kernel's result array ends at the rows looked up, and so does the reference's, from
    arguments that agree: the index words are in range on both sides, the same words. -/
theorem algebraic : Cert.algebraic_KernelIdeal_ReferenceIdeal := by
  intro m ρ m' ρ' hpre hagree
  have hok := ok_ki m hpre
  refine ⟨fun c => Cert.Proof.KI.Gout m c, Cert.Proof.KI.run_main (F := Ideal) m ρ hok, ?_⟩
  have hin' : ∀ c : Dev Cert.ReferenceIdeal.nD, Cert.Spec.InRange (m' ((c.tc : Thread Cert.ReferenceIdeal.nD Cert.ReferenceIdeal.τ).loc Cert.ReferenceIdeal.main_arg0)) := by
    intro c
    rw [(hagree c).1]
    exact hok c
  refine (θ_run Cert.ReferenceIdeal.defs _ _).mono (fun _ h c => ⟨(h c).1.trans ?_, (h c).2⟩)
    (Cert.ReferenceIdeal.RefValue.run_lookup m' ρ' hin')
  rw [(hagree c).1, (hagree c).2]
  rfl

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
